-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_scaled" .f32 0xD1649249#32 ((-576460752303423488 / 9395241 : ℝ) : EReal)
  ∧ IdealRules.named_const.Statement Cert.KernelIdeal.κ "neg_scaled" .f32 0xD1649249#32 ((-576460752303423488 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S12288x12288 : Shape := ⟨2, ![12288, 12288]⟩
abbrev S128x128 : Shape := ⟨2, ![128, 128]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S12288x128 .f32) (main_arg1 : FVec F S12288x128 .f32) (main_arg2 : IVec S12288x12288 32) (main_arg3 : FVec F S128x128 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S12288x128 .f32 := Host.absf main_arg1
  let main_cst_0 : FVec F S_ .f32 := constant S_ .f32 0x7F800000#32
  let main_v5 : FVec F S12288x128 .f32 := broadcastInDim S12288x128 ![] bcast_S_S12288x128 main_cst_0
  let main_v6 : IVec S12288x128 1 := cmpf .olt main_v4 main_v5
  let main_c_1 : IVec S_ 1 := constantI S_ 1 1#1
  let main_v7 : IVec S_ 1 := (fun x v => Host.reduce IntOp.andi x v reducesTo_S12288x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S12288x128 : Shape := ⟨2, ![12288, 128]⟩
abbrev S12288x12288 : Shape := ⟨2, ![12288, 12288]⟩
abbrev S128x128 : Shape := ⟨2, ![128, 128]⟩
abbrev S2048x128 : Shape := ⟨2, ![2048, 128]⟩
abbrev S1024x128 : Shape := ⟨2, ![1024, 128]⟩
abbrev S2048x1024 : Shape := ⟨2, ![2048, 1024]⟩
abbrev S2048x1 : Shape := ⟨2, ![2048, 1]⟩
abbrev S512x128 : Shape := ⟨2, ![512, 128]⟩
abbrev S2048x512 : Shape := ⟨2, ![2048, 512]⟩
abbrev S128x512 : Shape := ⟨2, ![128, 512]⟩
abbrev S2048 : Shape := ⟨1, ![2048]⟩

abbrev nBuf : Space → Nat
  | .hbm => 5
  | .vmem => 13
  | .smem => 0
  | _ => 0

abbrev bufTy : (tb : Table) → Fin (tcTables nBuf tb) → BufTy
  | .hbm, ⟨0, _⟩ => ⟨S12288x128, .f32⟩
  | .hbm, ⟨1, _⟩ => ⟨S12288x128, .f32⟩
  | .hbm, ⟨2, _⟩ => ⟨S12288x12288, .i32⟩
  | .hbm, ⟨3, _⟩ => ⟨S128x128, .f32⟩
  | .hbm, ⟨4, _⟩ => ⟨S12288x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S2048x1024, .i32⟩
  | .local _ .vmem, ⟨6, _⟩ => ⟨S2048x1024, .i32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x1, .f32⟩
  | .local _ .vmem, ⟨11, _⟩ => ⟨S2048x1, .f32⟩
  | .local _ .vmem, ⟨12, _⟩ => ⟨S2048x128, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![6, 12], ![false, false]⟩

def k0_mult1 : BitVec 32 :=
  let c0_i32_3 : BitVec 32 := 0#32
  let c0_i32_2 : BitVec 32 := 0#32
  let c1_i32 : BitVec 32 := 1#32
  let v4 : BitVec 32 := Scalar.muli c0_i32_2 c1_i32
  let v5 : BitVec 32 := Scalar.addi c0_i32_3 v4
  let c512_i32 : BitVec 32 := 512#32
  let v6 : BitVec 32 := Scalar.muli v5 c512_i32
  v6
def k0_off1 (c0_i32_2 : BitVec 32) : Fin 2 → Nat :=
  let c0_i32_3 : BitVec 32 := 0#32
  let c1_i32 : BitVec 32 := 1#32
  let v4 : BitVec 32 := Scalar.muli c0_i32_2 c1_i32
  let v5 : BitVec 32 := Scalar.addi c0_i32_3 v4
  let c512_i32 : BitVec 32 := 512#32
  let v6 : BitVec 32 := Scalar.muli v5 c512_i32
  let v7 : BitVec 32 := v6
  let v8 : Index := Scalar.indexCast v7
  let c0_4 : Index := 0#32
  ![v8.toNat, 0]
def k0_off2 (c0_i32_2 : BitVec 32) : Fin 2 → Nat :=
  let c0_5 : Index := 0#32
  let c0_i32_3 : BitVec 32 := 0#32
  let c1_i32 : BitVec 32 := 1#32
  let v4 : BitVec 32 := Scalar.muli c0_i32_2 c1_i32
  let v5 : BitVec 32 := Scalar.addi c0_i32_3 v4
  let c512_i32 : BitVec 32 := 512#32
  let v6 : BitVec 32 := Scalar.muli v5 c512_i32
  let v7 : BitVec 32 := v6
  let v11 : Index := Scalar.indexCast v7
  ![0, v11.toNat]
def k0_mult2 : BitVec 32 :=
  let c0_i32_25 : BitVec 32 := 0#32
  let c1_i32_23 : BitVec 32 := 1#32
  let c1_i32_24 : BitVec 32 := 1#32
  let v48 : BitVec 32 := Scalar.muli c1_i32_23 c1_i32_24
  let v49 : BitVec 32 := Scalar.addi c0_i32_25 v48
  let c512_i32_26 : BitVec 32 := 512#32
  let v50 : BitVec 32 := Scalar.muli v49 c512_i32_26
  v50
def k0_cond2 (i : grid0.Coords) : BitVec 1 :=
  let arg1 : BitVec 32 := BitVec.ofNat 32 (i 1).val
  let c11_i32 : BitVec 32 := 11#32
  let v92 : BitVec 1 := Scalar.cmpi .eq arg1 c11_i32
  let v93 : BitVec 32 := Scalar.extui v92
  let c0_i32_47 : BitVec 32 := 0#32
  let v94 : BitVec 1 := Scalar.cmpi .ne v93 c0_i32_47
  v94

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  h_S512x128 : 0 < S512x128.numel
  h_S2048x512 : 0 < S2048x512.numel
  transposes_S512x128_p1_0_S128x512 : S512x128.Transposes [1, 0] S128x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x128 : S2048x1.Broadcasts S2048x128
  dot_S2048x128_S128x128_S2048x128_1_0_0_1_n_n_wf : DotDims.WF S2048x128 S128x128 S2048x128 [1] [0] [0] [1] [] []
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  k0_mult1_dvd : 512 ∣ k0_mult1.toNat
  k0_off1_inb : ∀ (r : Fin 2), ∀ a, (k0_off1 (BitVec.ofNat 32 r.val)) a + S512x128.size a ≤ S1024x128.size a
  k0_off2_inb : ∀ (r : Fin 2), ∀ a, (k0_off2 (BitVec.ofNat 32 r.val)) a + S2048x512.size a ≤ S2048x1024.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S12288x128.size a
  hwx0_0 : ∀ i : grid0.Coords, EltTy.bits .f32 = 32 ∨ (Rect.block (s := S12288x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S12288x128.size a
  hwx0_2 : ∀ i : grid0.Coords, EltTy.bits .f32 = 32 ∨ (Rect.block (s := S12288x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S12288x12288.size a
  hwx0_3 : ∀ i : grid0.Coords, EltTy.bits .i32 = 32 ∨ (Rect.block (s := S12288x12288) S2048x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S12288x128.size a
  hwx0_4 : ∀ i : grid0.Coords, EltTy.bits .f32 = 32 ∨ (Rect.block (s := S12288x128) S2048x128.size (cc0_transform_4 i) (hinb0_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S12288x128 : Shape := ⟨2, ![12288, 128]⟩
abbrev S12288x12288 : Shape := ⟨2, ![12288, 12288]⟩
abbrev S128x128 : Shape := ⟨2, ![128, 128]⟩
abbrev S_ : Shape := ⟨0, ![]⟩
abbrev S128x12288 : Shape := ⟨2, ![128, 12288]⟩
abbrev S12288 : Shape := ⟨1, ![12288]⟩
abbrev S12288x1 : Shape := ⟨2, ![12288, 1]⟩

abbrev nBuf : Space → Nat
  | .hbm => 30
  | .vmem => 0
  | .smem => 0
  | _ => 0

abbrev bufTy : (tb : Table) → Fin (tcTables nBuf tb) → BufTy
  | .hbm, ⟨0, _⟩ => ⟨S12288x128, .f32⟩
  | .hbm, ⟨1, _⟩ => ⟨S12288x128, .f32⟩
  | .hbm, ⟨2, _⟩ => ⟨S12288x12288, .i32⟩
  | .hbm, ⟨3, _⟩ => ⟨S128x128, .f32⟩
  | .hbm, ⟨4, _⟩ => ⟨S_, .f32⟩
  | .hbm, ⟨5, _⟩ => ⟨S128x12288, .f32⟩
  | .hbm, ⟨6, _⟩ => ⟨S12288x12288, .f32⟩
  | .hbm, ⟨7, _⟩ => ⟨S_, .i32⟩
  | .hbm, ⟨8, _⟩ => ⟨S12288x12288, .i32⟩
  | .hbm, ⟨9, _⟩ => ⟨S12288x12288, .i1⟩
  | .hbm, ⟨10, _⟩ => ⟨S12288x12288, .f32⟩
  | .hbm, ⟨11, _⟩ => ⟨S12288x12288, .f32⟩
  | .hbm, ⟨12, _⟩ => ⟨S_, .f32⟩
  | .hbm, ⟨13, _⟩ => ⟨S12288x12288, .f32⟩
  | .hbm, ⟨14, _⟩ => ⟨S12288x12288, .f32⟩
  | .hbm, ⟨15, _⟩ => ⟨S_, .f32⟩
  | .hbm, ⟨16, _⟩ => ⟨S12288, .f32⟩
  | .hbm, ⟨17, _⟩ => ⟨S_, .f32⟩
  | .hbm, ⟨18, _⟩ => ⟨S12288, .f32⟩
  | .hbm, ⟨19, _⟩ => ⟨S12288, .f32⟩
  | .hbm, ⟨20, _⟩ => ⟨S12288x1, .f32⟩
  | .hbm, ⟨21, _⟩ => ⟨S12288x12288, .f32⟩
  | .hbm, ⟨22, _⟩ => ⟨S12288x12288, .f32⟩
  | .hbm, ⟨23, _⟩ => ⟨S12288x12288, .f32⟩
  | .hbm, ⟨24, _⟩ => ⟨S_, .f32⟩
  | .hbm, ⟨25, _⟩ => ⟨S12288, .f32⟩
  | .hbm, ⟨26, _⟩ => ⟨S12288x1, .f32⟩
  | .hbm, ⟨27, _⟩ => ⟨S12288x12288, .f32⟩
  | .hbm, ⟨28, _⟩ => ⟨S12288x12288, .f32⟩
  | .hbm, ⟨29, _⟩ => ⟨S12288x128, .f32⟩
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  dot_S128x128_S12288x128_S128x12288_0_1_1_0_n_n_wf : DotDims.WF S128x128 S12288x128 S128x12288 [0] [1] [1] [0] [] []
  dot_S128x12288_S12288x128_S12288x12288_0_1_1_0_n_n_wf : DotDims.WF S128x12288 S12288x128 S12288x12288 [0] [1] [1] [0] [] []
  dot_S12288x12288_S12288x128_S12288x128_1_0_0_1_n_n_wf : DotDims.WF S12288x12288 S12288x128 S12288x128 [1] [0] [0] [1] [] []

variable [Facts₀]

def dot_S128x128_S12288x128_S128x12288_0_1_1_0_n_n : DotDims S128x128 S12288x128 S128x12288 where
  lhsContracting := [0]
  rhsContracting := [1]
  lhsNonContracting := [1]
  rhsNonContracting := [0]
  lhsBatch := []
  rhsBatch := []
  wf := dot_S128x128_S12288x128_S128x12288_0_1_1_0_n_n_wf
def dot_S128x12288_S12288x128_S12288x12288_0_1_1_0_n_n : DotDims S128x12288 S12288x128 S12288x12288 where
  lhsContracting := [0]
  rhsContracting := [1]
  lhsNonContracting := [1]
  rhsNonContracting := [0]
  lhsBatch := []
  rhsBatch := []
  wf := dot_S128x12288_S12288x128_S12288x12288_0_1_1_0_n_n_wf
def dot_S12288x12288_S12288x128_S12288x128_1_0_0_1_n_n : DotDims S12288x12288 S12288x128 S12288x128 where
  lhsContracting := [1]
  rhsContracting := [0]
  lhsNonContracting := [0]
  rhsNonContracting := [1]
  lhsBatch := []
  rhsBatch := []
  wf := dot_S12288x12288_S12288x128_S12288x128_1_0_0_1_n_n_wf

class Facts : Prop extends Facts₀ where

variable [Facts]
-- ==== Proof.LibWholeStore.lean ====
/-
  A store that covers its whole buffer reads back as its payload.

  A piece written through the rectangle of the buffer's own shape at zero offsets, newest in a list of pieces, determines
  every element: reading the buffer back gives the piece's payload, whatever the older pieces and the prior contents were.
  This is what makes an accumulator that is rewritten whole on every trip of a loop readable as an iterate of one step.
-/
import Idealize.ShloMosaic.Lib.Pipeline.Value
import Idealize.ShloMosaic.Lib.Pipeline.FrameBody

namespace Cert.LibWholeStore

open Idealize.ShloMosaic

/-- A store through the whole-shape rectangle at zero offsets, newest, reads back as its payload whatever lay below. -/
theorem read_writes_cons_whole {sig : RefSig} {κ : Kind} {sp : Space} {S : Shape} {e : EltTy} {Val : EltTy → Type}
    [∀ e, Nonempty (Val e)] (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- The zero offsets of a rank-two buffer, however spelt. -/
theorem zero2 : (![0, 0] : Fin 2 → ℕ) = fun _ => 0 := funext fun a => by match a with | ⟨0, _⟩ => rfl | ⟨1, _⟩ => rfl
/-- The zero offsets of a rank-three buffer, however spelt. -/
theorem zero3 : (![0, 0, 0] : Fin 3 → ℕ) = fun _ => 0 :=
  funext fun a => by match a with | ⟨0, _⟩ => rfl | ⟨1, _⟩ => rfl | ⟨2, _⟩ => rfl

end Cert.LibWholeStore
-- ==== Proof.Pieces.lean ====
/-
  What one grid point leaves in the carried buffers, as plain compositions of the body's arithmetic.

  A grid point (anchor tile i, key tile j) treats its 1024 keys in two halves of 512. Each half takes the projected
  anchors q, the half's key rows kv and adjacency columns ad, and the running triple (m, l, a), and returns the next
  triple; the second half starts from what the first left. At the first key tile the triple starts from (−∞, 0, 0) and q
  is computed and kept; at the last key tile the quotient a / l is written out.
-/
import proofs.«106654_j85418309583434_2_alg».proof.Proof.Gen.KernelIdeal.Frame
import proofs.«106654_j85418309583434_2_alg».proof.Proof.LibWholeStore

set_option maxRecDepth 16384

noncomputable section

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

namespace Cert.GatPieces

variable {F : FTy → Type} [FloatOps F] [Named F]

theorem inbKV0 : ∀ a, (![0, 0] : Fin 2 → ℕ) a + S512x128.size a ≤ S1024x128.size a := by decide
theorem inbKV1 : ∀ a, (![512, 0] : Fin 2 → ℕ) a + S512x128.size a ≤ S1024x128.size a := by decide
theorem inbAD0 : ∀ a, (![0, 0] : Fin 2 → ℕ) a + S2048x512.size a ≤ S2048x1024.size a := by decide
theorem inbAD1 : ∀ a, (![0, 512] : Fin 2 → ℕ) a + S2048x512.size a ≤ S2048x1024.size a := by decide

/-- The first half's key rows: rows 0–511 of the key block. -/
def kvA (x2 : Vec F S1024x128 .f32) : Vec F S512x128 .f32 := View.ld x2 (Rect.unit (s := S1024x128) ![0, 0] S512x128.size inbKV0)
/-- The second half's key rows: rows 512–1023 of the key block. -/
def kvB (x2 : Vec F S1024x128 .f32) : Vec F S512x128 .f32 := View.ld x2 (Rect.unit (s := S1024x128) ![512, 0] S512x128.size inbKV1)
/-- The first half's adjacency columns. -/
def adA (x3 : Vec F S2048x1024 .i32) : Vec F S2048x512 .i32 := View.ld x3 (Rect.unit (s := S2048x1024) ![0, 0] S2048x512.size inbAD0)
/-- The second half's adjacency columns. -/
def adB (x3 : Vec F S2048x1024 .i32) : Vec F S2048x512 .i32 := View.ld x3 (Rect.unit (s := S2048x1024) ![0, 512] S2048x512.size inbAD1)

/-- One half-step of the running maximum. -/
def mC (q : Vec F S2048x128 .bf16) (kv : Vec F S512x128 .f32) (ad : Vec F S2048x512 .i32) (m : Vec F S2048x1 .f32) :
    Vec F S2048x1 .f32 := k0_pay16 (k0_pay11 q kv ad m)
/-- One half-step of the normaliser. -/
def lC (q : Vec F S2048x128 .bf16) (kv : Vec F S512x128 .f32) (ad : Vec F S2048x512 .i32) (m l : Vec F S2048x1 .f32) :
    Vec F S2048x1 .f32 := k0_pay17 (k0_pay14 q kv ad m l)
/-- One half-step of the weighted sums. -/
def aC (q : Vec F S2048x128 .bf16) (kv : Vec F S512x128 .f32) (ad : Vec F S2048x512 .i32) (m : Vec F S2048x1 .f32)
    (a : Vec F S2048x128 .f32) : Vec F S2048x128 .f32 := k0_pay18 (k0_pay12 q kv ad m) (k0_pay15 q kv ad m) a

/-- The running maximum after both halves of a grid point. -/
def mP (q : Vec F S2048x128 .bf16) (x2 : Vec F S1024x128 .f32) (x3 : Vec F S2048x1024 .i32) (m : Vec F S2048x1 .f32) :
    Vec F S2048x1 .f32 := mC q (kvB x2) (adB x3) (mC q (kvA x2) (adA x3) m)
/-- The normaliser after both halves of a grid point. -/
def lP (q : Vec F S2048x128 .bf16) (x2 : Vec F S1024x128 .f32) (x3 : Vec F S2048x1024 .i32) (m l : Vec F S2048x1 .f32) :
    Vec F S2048x1 .f32 := lC q (kvB x2) (adB x3) (mC q (kvA x2) (adA x3) m) (lC q (kvA x2) (adA x3) m l)
/-- The weighted sums after both halves of a grid point. -/
def aP (q : Vec F S2048x128 .bf16) (x2 : Vec F S1024x128 .f32) (x3 : Vec F S2048x1024 .i32) (m : Vec F S2048x1 .f32)
    (a : Vec F S2048x128 .f32) : Vec F S2048x128 .f32 :=
  aC q (kvB x2) (adB x3) (mC q (kvA x2) (adA x3) m) (aC q (kvA x2) (adA x3) m a)

/-! ## The first key tile: the projection is computed and kept, the triple starts from (−∞, 0, 0) -/

theorem sout_A_0 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : cond0_0 i) (hc1 : ¬cond0_1 i) (x0 : Vec F S2048x128 .f32) (x1 : Vec F S128x128 .f32) (x2 : Vec F S1024x128 .f32) (x3 : Vec F S2048x1024 .i32) :
    sout0_A_0 (F := F) c i arg2 harg2 arg3 harg3 arg4 harg4 arg5 harg5 arg6 harg6 arg7 harg7 arg8 harg8 arg9 harg9 arg10 harg10 hc0 hc1 x0 x1 x2 x3 = k0_pay5 x0 x1 := by
  unfold sout0_A_0 kernelRun0_A
  dsimp only
  sl_unfold_words
  rw [Cert.LibWholeStore.read_writes_cons_whole VS0_0 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]

theorem sout_A_1 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : cond0_0 i) (hc1 : ¬cond0_1 i) (x0 : Vec F S2048x128 .f32) (x1 : Vec F S128x128 .f32) (x2 : Vec F S1024x128 .f32) (x3 : Vec F S2048x1024 .i32) :
    sout0_A_1 (F := F) c i arg2 harg2 arg3 harg3 arg4 harg4 arg5 harg5 arg6 harg6 arg7 harg7 arg8 harg8 arg9 harg9 arg10 harg10 hc0 hc1 x0 x1 x2 x3 = mP (k0_pay5 x0 x1) x2 x3 (k0_pay6 (F := F)) := by
  unfold sout0_A_1 kernelRun0_A
  dsimp only
  sl_unfold_words
  rw [Cert.LibWholeStore.read_writes_cons_whole VS0_1 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem sout_A_2 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : cond0_0 i) (hc1 : ¬cond0_1 i) (x0 : Vec F S2048x128 .f32) (x1 : Vec F S128x128 .f32) (x2 : Vec F S1024x128 .f32) (x3 : Vec F S2048x1024 .i32) :
    sout0_A_2 (F := F) c i arg2 harg2 arg3 harg3 arg4 harg4 arg5 harg5 arg6 harg6 arg7 harg7 arg8 harg8 arg9 harg9 arg10 harg10 hc0 hc1 x0 x1 x2 x3 = lP (k0_pay5 x0 x1) x2 x3 (k0_pay6 (F := F)) (k0_pay7 (F := F)) := by
  unfold sout0_A_2 kernelRun0_A
  dsimp only
  sl_unfold_words
  rw [Cert.LibWholeStore.read_writes_cons_whole VS0_2 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem sout_A_3 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : cond0_0 i) (hc1 : ¬cond0_1 i) (x0 : Vec F S2048x128 .f32) (x1 : Vec F S128x128 .f32) (x2 : Vec F S1024x128 .f32) (x3 : Vec F S2048x1024 .i32) :
    sout0_A_3 (F := F) c i arg2 harg2 arg3 harg3 arg4 harg4 arg5 harg5 arg6 harg6 arg7 harg7 arg8 harg8 arg9 harg9 arg10 harg10 hc0 hc1 x0 x1 x2 x3 = aP (k0_pay5 x0 x1) x2 x3 (k0_pay6 (F := F)) (k0_pay8 (F := F)) := by
  unfold sout0_A_3 kernelRun0_A
  dsimp only
  sl_unfold_words
  rw [Cert.LibWholeStore.read_writes_cons_whole VS0_3 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

/-! ## A middle key tile -/

theorem sout_B_1 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : ¬cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    sout0_B_1 (F := F) c i arg2 harg2 arg3 harg3 arg4 harg4 arg5 harg5 arg6 harg6 arg7 harg7 arg8 harg8 arg9 harg9 arg10 harg10 hc0 hc1 x0 x1 x2 x3 xs0 xs1 xs2 xs3 = mP xs0 x2 x3 xs1 := by
  unfold sout0_B_1 kernelRun0_B
  dsimp only
  sl_unfold_words
  rw [Cert.LibWholeStore.read_writes_cons_whole VS0_1 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem sout_B_2 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : ¬cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    sout0_B_2 (F := F) c i arg2 harg2 arg3 harg3 arg4 harg4 arg5 harg5 arg6 harg6 arg7 harg7 arg8 harg8 arg9 harg9 arg10 harg10 hc0 hc1 x0 x1 x2 x3 xs0 xs1 xs2 xs3 = lP xs0 x2 x3 xs1 xs2 := by
  unfold sout0_B_2 kernelRun0_B
  dsimp only
  sl_unfold_words
  rw [Cert.LibWholeStore.read_writes_cons_whole VS0_2 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem sout_B_3 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : ¬cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    sout0_B_3 (F := F) c i arg2 harg2 arg3 harg3 arg4 harg4 arg5 harg5 arg6 harg6 arg7 harg7 arg8 harg8 arg9 harg9 arg10 harg10 hc0 hc1 x0 x1 x2 x3 xs0 xs1 xs2 xs3 = aP xs0 x2 x3 xs1 xs3 := by
  unfold sout0_B_3 kernelRun0_B
  dsimp only
  sl_unfold_words
  rw [Cert.LibWholeStore.read_writes_cons_whole VS0_3 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

/-! ## The last key tile: as a middle one, and the quotient is written out -/

theorem sout_C_1 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    sout0_C_1 (F := F) c i arg2 harg2 arg3 harg3 arg4 harg4 arg5 harg5 arg6 harg6 arg7 harg7 arg8 harg8 arg9 harg9 arg10 harg10 hc0 hc1 x0 x1 x2 x3 xs0 xs1 xs2 xs3 = mP xs0 x2 x3 xs1 := by
  unfold sout0_C_1 kernelRun0_C
  dsimp only
  sl_unfold_words
  rw [Cert.LibWholeStore.read_writes_cons_whole VS0_1 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem sout_C_2 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    sout0_C_2 (F := F) c i arg2 harg2 arg3 harg3 arg4 harg4 arg5 harg5 arg6 harg6 arg7 harg7 arg8 harg8 arg9 harg9 arg10 harg10 hc0 hc1 x0 x1 x2 x3 xs0 xs1 xs2 xs3 = lP xs0 x2 x3 xs1 xs2 := by
  unfold sout0_C_2 kernelRun0_C
  dsimp only
  sl_unfold_words
  rw [Cert.LibWholeStore.read_writes_cons_whole VS0_2 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem sout_C_3 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    sout0_C_3 (F := F) c i arg2 harg2 arg3 harg3 arg4 harg4 arg5 harg5 arg6 harg6 arg7 harg7 arg8 harg8 arg9 harg9 arg10 harg10 hc0 hc1 x0 x1 x2 x3 xs0 xs1 xs2 xs3 = aP xs0 x2 x3 xs1 xs3 := by
  unfold sout0_C_3 kernelRun0_C
  dsimp only
  sl_unfold_words
  rw [Cert.LibWholeStore.read_writes_cons_whole VS0_3 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

theorem out_C_4 (c : Dev nD) (i : grid0.Coords) (arg2 : Memref sig .tc .vmem S2048x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S2048x1024 .i32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x128 .f32) (harg10 : arg10.IsWhole) (hc0 : ¬cond0_0 i) (hc1 : cond0_1 i) (x0 : Vec F S2048x128 .f32) (x1 : Vec F S128x128 .f32) (x2 : Vec F S1024x128 .f32) (x3 : Vec F S2048x1024 .i32) (xs0 : Vec F S2048x128 .bf16) (xs1 : Vec F S2048x1 .f32) (xs2 : Vec F S2048x1 .f32) (xs3 : Vec F S2048x128 .f32) :
    out0_C_4 (F := F) c i arg2 harg2 arg3 harg3 arg4 harg4 arg5 harg5 arg6 harg6 arg7 harg7 arg8 harg8 arg9 harg9 arg10 harg10 hc0 hc1 x0 x1 x2 x3 xs0 xs1 xs2 xs3 = k0_pay4 (aP xs0 x2 x3 xs1 xs3) (lP xs0 x2 x3 xs1 xs2) := by
  unfold out0_C_4 kernelRun0_C
  dsimp only
  sl_unfold_words
  rw [Cert.LibWholeStore.read_writes_cons_whole VO0_4 _ Cert.LibWholeStore.zero2]
  simp only [View.readCov_cons_toLoadRect, View.readAt_eq_ld, harg2.read_unread, harg3.read_unread, harg7.read_unread, harg4.read_unread, harg5.read_unread,
    harg8.read_unread, harg9.read_unread, harg10.read_unread, View.ld_unit_zero (S := S2048x128) Cert.LibWholeStore.zero2,
    View.ld_unit_zero (S := S2048x1) Cert.LibWholeStore.zero2, View.ld_unit_zero (S := S128x128) Cert.LibWholeStore.zero2]
  rfl

end Cert.GatPieces

end
-- ==== Proof.LibRealSum.lean ====
/-
  Finite sums of real numbers read in the extended reals. The coercion `ℝ → EReal` is additive, so a finite sum of
  reals read there is the sum of the terms read there, and a sum of products of coerced reals — what a matrix
  product or a contraction of arrays holding real numbers reads as at the extended reals — is the coercion of
  the real sum of products.
-/
import Idealize.ShloMosaic.PureOps.Ideal

open scoped BigOperators

namespace Idealize.ShloMosaic.RealSum

/-- A finite sum of real numbers, read in the extended reals, is the sum of the numbers read there. -/
theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- A sum of products of real numbers read in the extended reals is the real sum of products read there. -/
theorem sum_coe_mul {ι : Type} [Fintype ι] (f g : ι → ℝ) :
    ∑ k : ι, (f k : EReal) * (g k : EReal) = ((∑ k : ι, f k * g k : ℝ) : EReal) := by
  rw [coe_sum]; exact Finset.sum_congr rfl fun k _ => (EReal.coe_mul _ _).symm

end Idealize.ShloMosaic.RealSum
-- ==== Proof.LibOnlineSoftmax.lean ====
/-
  Softmax attention of ONE row, accumulated block by block.

  For scores `z n` and values `x n d` (real numbers), write, for a shift `μ`,
    lsum μ N = ∑_{n < N} exp (z n − μ),     asum μ N = ∑_{n < N} exp (z n − μ) · x n.
  The quotient asum / lsum does not depend on the shift (both carry the factor exp (−μ)), and it is the softmax-weighted
  mean of the first N values. A running triple (m, l, a) that holds (μ, lsum μ N, asum μ N) for SOME real μ is carried
  over K further keys by
    m' = max m (max of the new scores),  α = exp (m − m'),  p k = exp (s k − m'),
    l' = α · l + ∑ p k,                  a' = α · a + ∑ p k · v k,
  because exp (μ − μ') · exp (z − μ) = exp (z − μ'); that m' is the running maximum plays no part, only that it is real.
  From the empty state (m = −∞, l = a = 0) the first step gives α = exp (−∞) = 0.
  The same quotient is what a softmax computed in one pass (shift by the row maximum, normalise, weight) gives.
  All of this is stated on the extended reals for data that are real numbers.
-/
import Idealize.ShloMosaic.PureOps.Ideal
import proofs.«106654_j85418309583434_2_alg».proof.Proof.LibRealSum

noncomputable section

open Idealize.ShloMosaic

namespace Cert.OnlineSoftmax

/-! ## On the reals -/

/-- The shifted normaliser of the first `N` keys. -/
def lsum (z : ℕ → ℝ) (μ : ℝ) (N : ℕ) : ℝ := ∑ n ∈ Finset.range N, Real.exp (z n - μ)

/-- The shifted weighted sum of the first `N` values. -/
def asum (z x : ℕ → ℝ) (μ : ℝ) (N : ℕ) : ℝ := ∑ n ∈ Finset.range N, Real.exp (z n - μ) * x n

theorem asum_step (z x : ℕ → ℝ) (μ μ' : ℝ) (N K : ℕ) :
    Real.exp (μ - μ') * asum z x μ N + ∑ k : Fin K, Real.exp (z (N + k.val) - μ') * x (N + k.val) = asum z x μ' (N + K) := by
  unfold asum
  rw [Finset.sum_range_add, Finset.mul_sum, Finset.sum_range (fun k => Real.exp (z (N + k) - μ') * x (N + k))]
  congr 1
  refine Finset.sum_congr rfl fun n _ => ?_
  rw [← mul_assoc, ← Real.exp_add]
  congr 2
  ring

theorem lsum_step (z : ℕ → ℝ) (μ μ' : ℝ) (N K : ℕ) :
    Real.exp (μ - μ') * lsum z μ N + ∑ k : Fin K, Real.exp (z (N + k.val) - μ') = lsum z μ' (N + K) := by
  have h := asum_step z (fun _ => 1) μ μ' N K
  simpa [asum, lsum] using h

theorem asum_shift (z x : ℕ → ℝ) (μ : ℝ) (N : ℕ) : asum z x μ N = Real.exp (-μ) * asum z x 0 N := by
  unfold asum
  rw [Finset.mul_sum]
  refine Finset.sum_congr rfl fun n _ => ?_
  rw [← mul_assoc, ← Real.exp_add]
  congr 2
  ring

theorem lsum_shift (z : ℕ → ℝ) (μ : ℝ) (N : ℕ) : lsum z μ N = Real.exp (-μ) * lsum z 0 N := by
  have h := asum_shift z (fun _ => 1) μ N
  simpa [asum, lsum] using h

theorem lsum_pos (z : ℕ → ℝ) (μ : ℝ) {N : ℕ} (hN : 0 < N) : 0 < lsum z μ N :=
  Finset.sum_pos (fun _ _ => Real.exp_pos _) ⟨0, Finset.mem_range.mpr hN⟩

/-- The quotient does not depend on the shift. -/
theorem quot_shift (z x : ℕ → ℝ) (μ : ℝ) (N : ℕ) : asum z x μ N / lsum z μ N = asum z x 0 N / lsum z 0 N := by
  rw [asum_shift z x μ, lsum_shift z μ, mul_div_mul_left _ _ (Real.exp_pos _).ne']

/-! ## On the extended reals -/

/-- A maximum over a non-empty family of real numbers, from −∞, is a real number. -/
theorem fold_max_real {K : ℕ} (hK : 0 < K) (zc : Fin K → ℝ) :
    ∃ ρ : ℝ, (Finset.univ : Finset (Fin K)).fold max ⊥ (fun k => (zc k : EReal)) = (ρ : EReal) := by
  have h1 : (Finset.univ : Finset (Fin K)).fold max ⊥ (fun k => (zc k : EReal)) ≠ ⊤ :=
    ne_of_lt ((Finset.fold_max_lt _).mpr ⟨bot_lt_top, fun k _ => EReal.coe_lt_top _⟩)
  have h2 : (Finset.univ : Finset (Fin K)).fold max ⊥ (fun k => (zc k : EReal)) ≠ ⊥ := by
    have h : ((zc ⟨0, hK⟩ : ℝ) : EReal) ≤ (Finset.univ : Finset (Fin K)).fold max ⊥ (fun k => (zc k : EReal)) :=
      (Finset.le_fold_max _).mpr (Or.inr ⟨⟨0, hK⟩, Finset.mem_univ _, le_rfl⟩)
    intro e
    rw [e] at h
    exact absurd h (not_le.mpr (EReal.bot_lt_coe _))
  exact ⟨_, (EReal.coe_toReal h1 h2).symm⟩

variable {ι : Type}

/-- The new running maximum. -/
def mNew {K : ℕ} (m : EReal) (s : Fin K → EReal) : EReal := max m ((Finset.univ : Finset (Fin K)).fold max ⊥ s)
/-- The factor that rescales what was accumulated under the old shift. -/
def alphaE {K : ℕ} (m : EReal) (s : Fin K → EReal) : EReal := Ideal.exp (m - mNew m s)
/-- The weight of a new key under the new shift. -/
def pE {K : ℕ} (m : EReal) (s : Fin K → EReal) (k : Fin K) : EReal := Ideal.exp (s k - mNew m s)
/-- The new normaliser. -/
def lNew {K : ℕ} (m l : EReal) (s : Fin K → EReal) : EReal := alphaE m s * l + ∑ k : Fin K, pE m s k
/-- The new weighted sum. -/
def aNew {K : ℕ} (m a : EReal) (s v : Fin K → EReal) : EReal := alphaE m s * a + ∑ k : Fin K, pE m s k * v k

/-- The running triple holds the shifted sums of the first `N` keys for some real shift. -/
def RowInv (z : ℕ → ℝ) (x : ℕ → ι → ℝ) (N : ℕ) (m l : EReal) (a : ι → EReal) : Prop :=
  ∃ μ : ℝ, m = (μ : EReal) ∧ l = ((lsum z μ N : ℝ) : EReal) ∧ ∀ d, a d = ((asum z (fun n => x n d) μ N : ℝ) : EReal)

theorem sum_exp_coe {K : ℕ} (zc : Fin K → ℝ) (μ' : ℝ) :
    ∑ k : Fin K, Ideal.exp (((zc k : ℝ) : EReal) - (μ' : EReal)) = ((∑ k : Fin K, Real.exp (zc k - μ') : ℝ) : EReal) := by
  rw [RealSum.coe_sum]
  refine Finset.sum_congr rfl fun k _ => ?_
  rw [← EReal.coe_sub]; rfl

theorem sum_exp_mul_coe {K : ℕ} (zc xc : Fin K → ℝ) (μ' : ℝ) :
    ∑ k : Fin K, Ideal.exp (((zc k : ℝ) : EReal) - (μ' : EReal)) * ((xc k : ℝ) : EReal)
      = ((∑ k : Fin K, Real.exp (zc k - μ') * xc k : ℝ) : EReal) := by
  rw [RealSum.coe_sum]
  refine Finset.sum_congr rfl fun k _ => ?_
  rw [← EReal.coe_sub, EReal.coe_mul]; rfl

/-- One step from a state that holds the first `N` keys. -/
theorem inv_step {K : ℕ} (hK : 0 < K) (z : ℕ → ℝ) (x : ℕ → ι → ℝ) (N : ℕ) (m l : EReal) (a : ι → EReal)
    (h : RowInv z x N m l a) (s : Fin K → EReal) (v : Fin K → ι → EReal)
    (hs : ∀ k : Fin K, s k = ((z (N + k.val) : ℝ) : EReal)) (hv : ∀ (k : Fin K) d, v k d = ((x (N + k.val) d : ℝ) : EReal)) :
    RowInv z x (N + K) (mNew m s) (lNew m l s) (fun d => aNew m (a d) s (fun k => v k d)) := by
  obtain ⟨μ, rfl, rfl, ha⟩ := h
  obtain ⟨ρ, hρ⟩ := fold_max_real hK (fun k => z (N + k.val))
  have hs' : s = fun k => ((z (N + k.val) : ℝ) : EReal) := funext hs
  subst hs'
  have hm : mNew (μ : EReal) (fun k : Fin K => ((z (N + k.val) : ℝ) : EReal)) = ((max μ ρ : ℝ) : EReal) := by
    unfold mNew; rw [hρ]; exact (EReal.coe_strictMono.monotone.map_max).symm
  refine ⟨max μ ρ, hm, ?_, fun d => ?_⟩
  · unfold lNew alphaE pE
    rw [hm, sum_exp_coe, ← EReal.coe_sub, ← lsum_step z μ (max μ ρ) N K, EReal.coe_add, EReal.coe_mul]; rfl
  · beta_reduce
    unfold aNew alphaE pE
    rw [hm, ha d]
    have hv' : (fun k : Fin K => v k d) = fun k => ((x (N + k.val) d : ℝ) : EReal) := funext fun k => hv k d
    rw [hv', sum_exp_mul_coe (fun k => z (N + k.val)) (fun k => x (N + k.val) d), ← EReal.coe_sub,
      ← asum_step z (fun n => x n d) μ (max μ ρ) N K, EReal.coe_add, EReal.coe_mul]; rfl

/-- The first step, from the empty state: running maximum −∞, normaliser and weighted sums zero. -/
theorem inv_init {K : ℕ} (hK : 0 < K) (z : ℕ → ℝ) (x : ℕ → ι → ℝ) (s : Fin K → EReal) (v : Fin K → ι → EReal)
    (hs : ∀ k : Fin K, s k = ((z k.val : ℝ) : EReal)) (hv : ∀ (k : Fin K) d, v k d = ((x k.val d : ℝ) : EReal)) :
    RowInv z x K (mNew ⊥ s) (lNew ⊥ 0 s) (fun d => aNew ⊥ 0 s (fun k => v k d)) := by
  obtain ⟨ρ, hρ⟩ := fold_max_real hK (fun k => z k.val)
  have hs' : s = fun k => ((z k.val : ℝ) : EReal) := funext hs
  subst hs'
  have hm : mNew ⊥ (fun k : Fin K => ((z k.val : ℝ) : EReal)) = (ρ : EReal) := by
    unfold mNew; rw [hρ]; exact max_eq_right bot_le
  have hα : Ideal.exp ((⊥ : EReal) - (ρ : EReal)) = 0 := by
    rw [EReal.bot_sub]; rfl
  refine ⟨ρ, hm, ?_, fun d => ?_⟩
  · unfold lNew alphaE pE
    rw [hm, hα, zero_mul, zero_add, sum_exp_coe]
    unfold lsum
    rw [Finset.sum_range (fun n => Real.exp (z n - ρ))]
  · beta_reduce
    unfold aNew alphaE pE
    have hv' : (fun k : Fin K => v k d) = fun k => ((x k.val d : ℝ) : EReal) := funext fun k => hv k d
    rw [hm, hα, zero_mul, zero_add, hv', sum_exp_mul_coe (fun k => z k.val) (fun k => x k.val d)]
    unfold asum
    rw [Finset.sum_range (fun n => Real.exp (z n - ρ) * x n d)]

/-- The final division: weighted sum over normaliser is the softmax-weighted mean, whatever the shift was. -/
theorem inv_final (z : ℕ → ℝ) (x : ℕ → ι → ℝ) {N : ℕ} (hN : 0 < N) (m l : EReal) (a : ι → EReal)
    (h : RowInv z x N m l a) (d : ι) :
    Ideal.div (a d) l = ((asum z (fun n => x n d) 0 N / lsum z 0 N : ℝ) : EReal) := by
  obtain ⟨μ, _, rfl, ha⟩ := h
  rw [ha d, Ideal.div_coe (lsum_pos z μ hN).ne', ← EReal.coe_mul, ← quot_shift z (fun n => x n d) μ N, mul_one_div]

/-- A softmax row computed in one pass — shift by the row maximum, exponentiate, divide by the sum, weight the values — is
    the same softmax-weighted mean. -/
theorem onepass {N : ℕ} (hN : 0 < N) (z : ℕ → ℝ) (x : ℕ → ι → ℝ) (s : Fin N → EReal) (v : Fin N → ι → EReal)
    (hs : ∀ n : Fin N, s n = ((z n.val : ℝ) : EReal)) (hv : ∀ (n : Fin N) d, v n d = ((x n.val d : ℝ) : EReal)) (d : ι) :
    ∑ n : Fin N, Ideal.div (Ideal.exp (s n - (Finset.univ : Finset (Fin N)).fold max ⊥ s))
        (∑ n' : Fin N, Ideal.exp (s n' - (Finset.univ : Finset (Fin N)).fold max ⊥ s)) * v n d
      = ((asum z (fun n => x n d) 0 N / lsum z 0 N : ℝ) : EReal) := by
  obtain ⟨ρ, hρ⟩ := fold_max_real hN (fun k => z k.val)
  have hs' : s = fun k => ((z k.val : ℝ) : EReal) := funext hs
  subst hs'
  rw [hρ, sum_exp_coe]
  have hL : (∑ k : Fin N, Real.exp (z k.val - ρ)) = lsum z ρ N := by
    unfold lsum; rw [Finset.sum_range (fun n => Real.exp (z n - ρ))]
  rw [hL]
  have hpos := lsum_pos z ρ hN
  have hterm : ∀ n : Fin N, Ideal.div (Ideal.exp (((z n.val : ℝ) : EReal) - (ρ : EReal))) ((lsum z ρ N : ℝ) : EReal) * v n d
      = ((Real.exp (z n.val - ρ) * x n.val d / lsum z ρ N : ℝ) : EReal) := fun n => by
    rw [hv n d, Ideal.div_coe hpos.ne', ← EReal.coe_sub]
    show ((Real.exp (z n.val - ρ) : ℝ) : EReal) * _ * _ = _
    rw [← EReal.coe_mul, ← EReal.coe_mul]
    congr 1
    ring
  rw [Finset.sum_congr rfl fun n _ => hterm n, ← RealSum.coe_sum, ← Finset.sum_div, ← quot_shift z (fun n => x n d) ρ N]
  congr 2
  unfold asum
  rw [Finset.sum_range (fun n => Real.exp (z n - ρ) * x n d)]

end Cert.OnlineSoftmax

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibRowMax.lean ====
/-
  A row's maximum read at a row, at the extended reals.

  The float maximum-reduction of an [a, b] array over its second axis, from the pattern of −∞, is at row r the fold of
  max from ⊥ over the b entries (r, j) of that row: for the vector unit's multi_reduction <maximumf>, and for the host's
  one-operand reduce with a maximum body from an initial value that denotes −∞. Both sides land on one and the same
  `Finset.fold` over the columns, so a kernel's and a reference's row maxima are compared entry by entry.
-/
import Idealize.ShloMosaic.PureOps.Ideal.Laws
import Idealize.ShloMosaic.Lib.ValueIdx

noncomputable section

namespace Cert.LibRowMax

open Idealize.ShloMosaic Idealize.ShloMosaic.ValueIdx

/-- The f32 pattern of −∞ denotes the bottom of the extended reals. -/
theorem negInf_f32 : Ideal.ofBits .f32 0xFF800000#32 = ⊥ := by simp [Ideal.ofBits, Ideal.ieee]

/-- The index (r, j) of an [a, b] array is the row index r with the column j inserted on the reduced axis. -/
theorem lift_row {a b : ℕ} (h : Shape.Reduces ⟨2, ![a, b]⟩ [1] ⟨1, ![a]⟩) (r : Fin a) (j : Fin b) :
    h.lift (ix1 r) j = ix2 r j := by
  funext d
  match d with
  | ⟨0, _⟩ => rfl
  | ⟨1, _⟩ => rfl

/-- The vector unit's maximum-reduction of an [a, b] vector over axis 1 from −∞, read at row r: the fold of max from ⊥
    over the row's entries. -/
theorem laneMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin b)).fold max ⊥ (fun j => src (ix2 r j)) := by
  refine (Ideal.multiReduction_maximumf_single src 0xFF800000#32 h hφ hacc (ix1 r)).trans ?_
  show (Finset.univ : Finset (Fin b)).fold max (Ideal.ofBits .f32 0xFF800000#32) (src ∘ h.lift (ix1 r)) = _
  rw [negInf_f32]
  exact congrArg (fun f => Finset.fold max ⊥ f (Finset.univ : Finset (Fin b))) (funext fun j => congrArg src (lift_row h r j))

/-- The host's reduce with a maximum body over axis 1 of an [a, b] array, from an initial value that denotes −∞, read at
    row r: the same fold. -/
theorem hostRowMax_apply {a b : ℕ} {u : Shape} (x : (⟨2, ![a, b]⟩ : Shape).Idx → Ideal .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (hinit : init (Shape.Idx.first hu) = ⊥) (r : Fin a) :
    Host.reduce (FloatOps.maximumf (F := Ideal) (φ := .f32)) x init h' hu (ix1 r)
      = (Finset.univ : Finset (Fin b)).fold max ⊥ (fun j => x (ix2 r j)) := by
  refine (Host.reduce_eq_fold_single (FloatOps.maximumf (F := Ideal) (φ := .f32)) x init h' h hu (ix1 r)).trans ?_
  rw [hinit]
  show (Finset.univ : Finset (Fin b)).fold max ⊥ (x ∘ h.lift (ix1 r)) = _
  exact congrArg (fun f => Finset.fold max ⊥ f (Finset.univ : Finset (Fin b))) (funext fun j => congrArg x (lift_row h r j))

end Cert.LibRowMax

end
-- ==== Proof.Rows.lean ====
/-
  The body's arithmetic read row by row, on the extended reals.

  Row r of a half-step sees the 512 scaled scores
      s k = ∑ₑ q (r, e) · kv (k, e)   where the adjacency entry (r, k) is positive,      s k = ν   elsewhere
  (ν the padding score over the temperature), and turns the running triple (m, l, a) of that row into
      m' = max m (max_k s k),   l' = exp (m − m') · l + ∑_k exp (s k − m'),   a' d = exp (m − m') · a d + ∑_k exp (s k − m') · kv (k, d):
  the maximum and the sums are lane reductions along the key axis, the two products are contractions over the feature
  and the key axis, and every change of float format is the identity here. The projection kept across key tiles is
  q (r, e) = (∑_d xx (r, d) · W (d, e)) · c with c the reciprocal of the temperature, and the last key tile writes a / l.
-/
import proofs.«106654_j85418309583434_2_alg».proof.Proof.Pieces
import proofs.«106654_j85418309583434_2_alg».proof.Proof.LibOnlineSoftmax
import proofs.«106654_j85418309583434_2_alg».proof.Proof.LibLane
import proofs.«106654_j85418309583434_2_alg».proof.Proof.LibIndexRead
import proofs.«106654_j85418309583434_2_alg».proof.Proof.LibPlainDot
import proofs.«106654_j85418309583434_2_alg».proof.Proof.LibRowMax
import Idealize.ShloMosaic.Lib.ValueLayout
import Idealize.ShloMosaic.PureOps.IdealRules
import Idealize.ShloMosaic.PureOps.Ideal.Laws

set_option maxRecDepth 16384

noncomputable section

open Idealize.ShloMosaic Idealize.ShloMosaic.ValueIdx
open Cert.KernelIdeal Cert.KernelIdeal.Gen Cert.OnlineSoftmax Cert.GatPieces

namespace Cert.GatRows

/-- The named reciprocal of the temperature is the rational the certificate's table gives it. -/
theorem invTemp : Named.named (F := Ideal) κ "inv_temp" (φ := .f32) 0x41649249#32 = ((134217728 / 9395241 : ℝ) : EReal) :=
  IdealRules.named_const.ideal_named_scalar _ _ _ _ rfl

/-- The named padding score is the rational the certificate's table gives it. -/
theorem negScaled : Named.named (F := Ideal) κ "neg_scaled" (φ := .f32) 0xD1649249#32
    = ((-576460752303423488 / 9395241 : ℝ) : EReal) :=
  IdealRules.named_const.ideal_named_scalar _ _ _ _ rfl

/-! ## Casts of a shape to itself -/

theorem pay16_id {F : FTy → Type} [FloatOps F] [Named F] (v : FVec F S2048x1 .f32) : k0_pay16 v = v :=
  shapeCast_self v shapeCasts_S2048x1_S2048x1
theorem pay17_id {F : FTy → Type} [FloatOps F] [Named F] (v : FVec F S2048x1 .f32) : k0_pay17 v = v :=
  shapeCast_self v shapeCasts_S2048x1_S2048x1
theorem pay18_eq {F : FTy → Type} [FloatOps F] [Named F] (v24 : FVec F S2048x1 .f32) (v34 : FVec F S2048x128 .f32)
    (v35 : Vec F S2048x128 .f32) :
    k0_pay18 v24 v34 v35 = addf (mulf (broadcastTo S2048x128 v24 broadcasts_S2048x1_S2048x128) v35) v34 :=
  shapeCast_self _ shapeCasts_S2048x128_S2048x128

/-! ## Pointwise operations at an index, over any operands -/

theorem expsub_apply {s : Shape} {φ : FTy} (x y : FVec Ideal s φ) (i : s.Idx) : exp (subf x y) i = Ideal.exp (x i - y i) := rfl
theorem muladd_apply {s : Shape} {φ : FTy} (x y w : FVec Ideal s φ) (i : s.Idx) : addf (mulf x y) w i = x i * y i + w i := rfl
theorem truncmul_apply {s : Shape} (x : FVec Ideal s .f32) (cst : Ideal .f32) (i : s.Idx) :
    (truncf .bf16 (mulf x (broadcast s cst)) bitsLt_bf16_f32 : FVec Ideal s .bf16) i = x i * cst := rfl

variable (q : FVec Ideal S2048x128 .bf16) (kv : FVec Ideal S512x128 .f32) (ad : IVec S2048x512 32)
variable (m l : FVec Ideal S2048x1 .f32) (a : FVec Ideal S2048x128 .f32)

/-- The scaled score of row r against key k of a half. -/
def sc (r : Fin 2048) (k : Fin 512) : EReal :=
  Scalar.select (IntOp.cmpi .sgt (ad (ix2 r k)) 0#32) (∑ e : Fin 128, q (ix2 r e) * kv (ix2 k e))
    ((-576460752303423488 / 9395241 : ℝ) : EReal)

theorem score_apply (r : Fin 2048) (k : Fin 512) : k0_pay10 (F := Ideal) q kv ad (ix2 r k) = sc q kv ad r k := by
  have h1 : matmul dot_S2048x128_S128x512_S2048x512_1_0_0_1_n_n none q
      (transpose S128x512 [1, 0] (truncf .bf16 kv bitsLt_bf16_f32) transposes_S512x128_p1_0_S128x512)
      (constant S2048x512 .f32 0x00000000#32) (ix2 r k) = ∑ e : Fin 128, q (ix2 r e) * kv (ix2 k e) := by
    refine (PlainDot.matmul_plain _ rfl none q _ r k).trans ?_
    refine Finset.sum_congr rfl fun e _ => congrArg (q (ix2 r e) * ·) ?_
    exact transpose_ix2_apply (truncf .bf16 kv bitsLt_bf16_f32) transposes_S512x128_p1_0_S128x512 e k
  unfold sc
  rw [← h1, ← negScaled]
  rfl

theorem rowmax_apply (r : Fin 2048) :
    shapeCast S2048x1 (multiReduction .maximumf [1] S2048 (k0_pay10 (F := Ideal) q kv ad) 0xFF800000#32
      reduces_S2048x512_S2048 (.inl rfl) rfl) shapeCasts_S2048_S2048x1 (ix2 r (0 : Fin 1))
      = (Finset.univ : Finset (Fin 512)).fold max ⊥ (sc q kv ad r) := by
  refine (RowRead.shapeCast_a_a1_apply _ _ r 0).trans ?_
  refine (LibRowMax.laneMax_apply (k0_pay10 (F := Ideal) q kv ad) _ _ _ r).trans ?_
  exact congrArg (fun f => (Finset.univ : Finset (Fin 512)).fold max ⊥ f) (funext fun k => score_apply q kv ad r k)

theorem pay11_apply (r : Fin 2048) :
    k0_pay11 (F := Ideal) q kv ad m (ix2 r (0 : Fin 1)) = mNew (m (ix2 r (0 : Fin 1))) (sc q kv ad r) :=
  (maximumf_apply m (shapeCast S2048x1 (multiReduction .maximumf [1] S2048 (k0_pay10 (F := Ideal) q kv ad) 0xFF800000#32
      reduces_S2048x512_S2048 (.inl rfl) rfl) shapeCasts_S2048_S2048x1) (ix2 r (0 : Fin 1))).trans
    (congrArg (max (m (ix2 r (0 : Fin 1)))) (rowmax_apply q kv ad r))

theorem mC_apply (r : Fin 2048) :
    mC (F := Ideal) q kv ad m (ix2 r (0 : Fin 1)) = mNew (m (ix2 r (0 : Fin 1))) (sc q kv ad r) := by
  unfold mC
  rw [pay16_id]
  exact pay11_apply q kv ad m r

theorem pay12_apply (r : Fin 2048) :
    k0_pay12 (F := Ideal) q kv ad m (ix2 r (0 : Fin 1)) = alphaE (m (ix2 r (0 : Fin 1))) (sc q kv ad r) :=
  (expsub_apply m (k0_pay11 (F := Ideal) q kv ad m) (ix2 r (0 : Fin 1))).trans
    (congrArg (fun t => Ideal.exp (m (ix2 r (0 : Fin 1)) - t)) (pay11_apply q kv ad m r))

theorem pay13_apply (r : Fin 2048) (k : Fin 512) :
    k0_pay13 (F := Ideal) q kv ad m (ix2 r k) = pE (m (ix2 r (0 : Fin 1))) (sc q kv ad r) k := by
  have hb : broadcastTo S2048x512 (k0_pay11 (F := Ideal) q kv ad m) broadcasts_S2048x1_S2048x512 (ix2 r k)
      = k0_pay11 (F := Ideal) q kv ad m (ix2 r (0 : Fin 1)) := RowRead.broadcastTo_a1_ab_apply _ _ r k
  refine (expsub_apply (k0_pay10 (F := Ideal) q kv ad)
    (broadcastTo S2048x512 (k0_pay11 (F := Ideal) q kv ad m) broadcasts_S2048x1_S2048x512) (ix2 r k)).trans ?_
  rw [score_apply, hb, pay11_apply]
  rfl

theorem rowsum_apply (r : Fin 2048) :
    shapeCast S2048x1 (multiReduction .add [1] S2048 (k0_pay13 (F := Ideal) q kv ad m) 0x00000000#32
      reduces_S2048x512_S2048 (.inl rfl) rfl) shapeCasts_S2048_S2048x1 (ix2 r (0 : Fin 1))
      = ∑ k : Fin 512, pE (m (ix2 r (0 : Fin 1))) (sc q kv ad r) k := by
  refine (RowRead.shapeCast_a_a1_apply _ _ r 0).trans ?_
  refine (LibLane.laneSum_apply (k0_pay13 (F := Ideal) q kv ad m) _ _ rfl r).trans ?_
  exact Finset.sum_congr rfl fun k _ => pay13_apply q kv ad m r k

theorem pay14_apply (r : Fin 2048) :
    k0_pay14 (F := Ideal) q kv ad m l (ix2 r (0 : Fin 1))
      = lNew (m (ix2 r (0 : Fin 1))) (l (ix2 r (0 : Fin 1))) (sc q kv ad r) := by
  refine (muladd_apply (k0_pay12 (F := Ideal) q kv ad m) l
    (shapeCast S2048x1 (multiReduction .add [1] S2048 (k0_pay13 (F := Ideal) q kv ad m) 0x00000000#32
      reduces_S2048x512_S2048 (.inl rfl) rfl) shapeCasts_S2048_S2048x1) (ix2 r (0 : Fin 1))).trans ?_
  rw [pay12_apply, rowsum_apply]
  rfl

theorem lC_apply (r : Fin 2048) :
    lC (F := Ideal) q kv ad m l (ix2 r (0 : Fin 1))
      = lNew (m (ix2 r (0 : Fin 1))) (l (ix2 r (0 : Fin 1))) (sc q kv ad r) := by
  unfold lC
  rw [pay17_id]
  exact pay14_apply q kv ad m l r

theorem pay15_apply (r : Fin 2048) (d : Fin 128) :
    k0_pay15 (F := Ideal) q kv ad m (ix2 r d)
      = ∑ k : Fin 512, pE (m (ix2 r (0 : Fin 1))) (sc q kv ad r) k * kv (ix2 k d) := by
  refine (PlainDot.matmul_plain dot_S2048x512_S512x128_S2048x128_1_0_0_1_n_n rfl none
    (truncf .bf16 (k0_pay13 (F := Ideal) q kv ad m) bitsLt_bf16_f32) (k0_pay9 (F := Ideal) kv) r d).trans ?_
  refine Finset.sum_congr rfl fun k _ => ?_
  show k0_pay13 (F := Ideal) q kv ad m (ix2 r k) * kv (ix2 k d) = _
  rw [pay13_apply]

theorem aC_apply (r : Fin 2048) (d : Fin 128) :
    aC (F := Ideal) q kv ad m a (ix2 r d)
      = aNew (m (ix2 r (0 : Fin 1))) (a (ix2 r d)) (sc q kv ad r) (fun k => kv (ix2 k d)) := by
  have hb : broadcastTo S2048x128 (k0_pay12 (F := Ideal) q kv ad m) broadcasts_S2048x1_S2048x128 (ix2 r d)
      = k0_pay12 (F := Ideal) q kv ad m (ix2 r (0 : Fin 1)) := RowRead.broadcastTo_a1_ab_apply _ _ r d
  unfold aC
  rw [pay18_eq]
  refine (muladd_apply (broadcastTo S2048x128 (k0_pay12 (F := Ideal) q kv ad m) broadcasts_S2048x1_S2048x128) a
    (k0_pay15 (F := Ideal) q kv ad m) (ix2 r d)).trans ?_
  rw [hb, pay12_apply, pay15_apply]
  rfl

/-! ## The projection, the empty state, the quotient -/

theorem q_apply (x0 : FVec Ideal S2048x128 .f32) (x1 : FVec Ideal S128x128 .f32) (r : Fin 2048) (e : Fin 128) :
    k0_pay5 (F := Ideal) x0 x1 (ix2 r e)
      = (∑ d : Fin 128, x0 (ix2 r d) * x1 (ix2 d e)) * ((134217728 / 9395241 : ℝ) : EReal) := by
  have h5 : k0_pay5 (F := Ideal) x0 x1 = truncf .bf16 (mulf (matmul dot_S2048x128_S128x128_S2048x128_1_0_0_1_n_n none
      (truncf .bf16 x0 bitsLt_bf16_f32) (truncf .bf16 x1 bitsLt_bf16_f32) (constant S2048x128 .f32 0x00000000#32))
      (broadcast S2048x128 (Named.named (F := Ideal) κ "inv_temp" (φ := .f32) 0x41649249#32))) bitsLt_bf16_f32 :=
    shapeCast_self _ shapeCasts_S2048x128_S2048x128
  have hm : matmul dot_S2048x128_S128x128_S2048x128_1_0_0_1_n_n none
      (truncf .bf16 x0 bitsLt_bf16_f32) (truncf .bf16 x1 bitsLt_bf16_f32) (constant S2048x128 .f32 0x00000000#32) (ix2 r e)
      = ∑ d : Fin 128, x0 (ix2 r d) * x1 (ix2 d e) :=
    PlainDot.matmul_plain _ rfl none (truncf .bf16 x0 bitsLt_bf16_f32) (truncf .bf16 x1 bitsLt_bf16_f32) r e
  rw [h5]
  refine (truncmul_apply _ _ (ix2 r e)).trans ?_
  rw [hm, invTemp]

theorem m0_apply (r : Fin 2048) : k0_pay6 (F := Ideal) (ix2 r (0 : Fin 1)) = ⊥ := by
  have h6 : k0_pay6 (F := Ideal) = broadcast S2048x1 (Scalar.ofBits (F := Ideal) .f32 0xFF800000#32) :=
    shapeCast_self _ shapeCasts_S2048x1_S2048x1
  rw [h6]
  exact LibRowMax.negInf_f32

theorem l0_apply (r : Fin 2048) : k0_pay7 (F := Ideal) (ix2 r (0 : Fin 1)) = 0 := by
  have h7 : k0_pay7 (F := Ideal) = broadcast S2048x1 (Scalar.ofBits (F := Ideal) .f32 0x00000000#32) :=
    shapeCast_self _ shapeCasts_S2048x1_S2048x1
  rw [h7]
  exact Ideal.ofBits_zero_f32

theorem a0_apply (r : Fin 2048) (d : Fin 128) : k0_pay8 (F := Ideal) (ix2 r d) = 0 := by
  have h8 : k0_pay8 (F := Ideal) = broadcast S2048x128 (Scalar.ofBits (F := Ideal) .f32 0x00000000#32) :=
    shapeCast_self _ shapeCasts_S2048x128_S2048x128
  rw [h8]
  exact Ideal.ofBits_zero_f32

theorem quot_apply (r : Fin 2048) (d : Fin 128) :
    k0_pay4 (F := Ideal) a l (ix2 r d) = Ideal.div (a (ix2 r d)) (l (ix2 r (0 : Fin 1))) :=
  (divf_apply a (broadcastTo S2048x128 l broadcasts_S2048x1_S2048x128) (ix2 r d)).trans
    (congrArg (Ideal.div (a (ix2 r d))) (RowRead.broadcastTo_a1_ab_apply _ _ r d))

end Cert.GatRows

end
-- ==== Proof.Spec.lean ====
/-
  What both programs compute, as ONE function of the argument arrays.

  For anchors xx [12288, 128], neighbours inp [12288, 128], an integer adjacency adj [12288, 12288] and a weight W [128, 128]
  (all float entries real numbers), row R of the result is the softmax-weighted mean of the neighbours' rows,
      out R d = (∑ₙ exp (z R n) · inp n d) / (∑ₙ exp (z R n)),
  with the scaled scores
      z R n = ∑ₑ ((∑_d xx R d · W d e) · c) · inp n e     where adj R n > 0,      z R n = ν      elsewhere,
  c = 2²⁷ / 9395241 the reciprocal of the temperature's single-precision value 9395241 / 2²⁷, and ν = −2⁵⁹ / 9395241 the
  padding score −2³² over that temperature. The key index n is kept a natural number so that prefixes of the key axis are
  ranges; entries are read as real numbers (zero outside the array, which no sum below reaches).
-/
import Idealize.ShloMosaic.PureOps.Ideal
import Idealize.ShloMosaic.Lib.ValueIdx
import proofs.«106654_j85418309583434_2_alg».proof.Proof.LibOnlineSoftmax

noncomputable section

open Idealize.ShloMosaic Idealize.ShloMosaic.ValueIdx Cert.OnlineSoftmax

namespace Cert.GatSpec

abbrev SMD : Shape := ⟨2, ![12288, 128]⟩
abbrev SDD : Shape := ⟨2, ![128, 128]⟩
abbrev SMN : Shape := ⟨2, ![12288, 12288]⟩

/-- Entry (a, b) of an array of extended reals, read as a real number; zero outside the array. -/
def rd {A B : ℕ} (x : (⟨2, ![A, B]⟩ : Shape).Idx → EReal) (a b : ℕ) : ℝ :=
  if h : a < A ∧ b < B then (x (ix2 ⟨a, h.1⟩ ⟨b, h.2⟩)).toReal else 0

/-- Where every entry is a real number, an entry is its real reading. -/
theorem rd_spec {A B : ℕ} (x : (⟨2, ![A, B]⟩ : Shape).Idx → EReal) (hx : ∀ i, ∃ r : ℝ, x i = (r : EReal))
    (a : Fin A) (b : Fin B) : x (ix2 a b) = ((rd x a.val b.val : ℝ) : EReal) := by
  obtain ⟨r, hr⟩ := hx (ix2 a b)
  unfold rd
  rw [dif_pos ⟨a.isLt, b.isLt⟩]
  show x (ix2 a b) = _
  rw [hr]; rfl

/-- The reciprocal of the temperature's single-precision value. -/
def cInv : ℝ := 134217728 / 9395241
/-- The padding score over the temperature. -/
def negS : ℝ := -576460752303423488 / 9395241

/-- The projected and scaled anchor row. -/
def qR (xx : SMD.Idx → EReal) (W : SDD.Idx → EReal) (R e : ℕ) : ℝ :=
  (∑ d : Fin 128, rd xx R d.val * rd W d.val e) * cInv

/-- Neighbour n is adjacent to anchor R. -/
def live (adj : SMN.Idx → BitVec 32) (R n : ℕ) : Prop :=
  ∃ h : R < 12288 ∧ n < 12288, IntOp.cmpi .sgt (adj (ix2 ⟨R, h.1⟩ ⟨n, h.2⟩)) 0#32 = 1#1

open Classical in
/-- The scaled score of neighbour n for anchor R. -/
def zR (xx inp : SMD.Idx → EReal) (adj : SMN.Idx → BitVec 32) (W : SDD.Idx → EReal) (R n : ℕ) : ℝ :=
  if live adj R n then ∑ e : Fin 128, qR xx W R e.val * rd inp n e.val else negS

/-- The result: row R, feature d. -/
def G (xx inp : SMD.Idx → EReal) (adj : SMN.Idx → BitVec 32) (W : SDD.Idx → EReal) : SMD.Idx → EReal := fun i =>
  ((asum (zR xx inp adj W (i 0).val) (fun n => rd inp n (i 1).val) 0 12288
      / lsum (zR xx inp adj W (i 0).val) 0 12288 : ℝ) : EReal)

theorem zR_live {xx inp : SMD.Idx → EReal} {adj : SMN.Idx → BitVec 32} {W : SDD.Idx → EReal} (R n : Fin 12288)
    (h : IntOp.cmpi .sgt (adj (ix2 R n)) 0#32 = 1#1) :
    zR xx inp adj W R.val n.val = ∑ e : Fin 128, qR xx W R.val e.val * rd inp n.val e.val := by
  unfold zR
  rw [if_pos ⟨⟨R.isLt, n.isLt⟩, h⟩]

theorem zR_dead {xx inp : SMD.Idx → EReal} {adj : SMN.Idx → BitVec 32} {W : SDD.Idx → EReal} (R n : Fin 12288)
    (h : ¬IntOp.cmpi .sgt (adj (ix2 R n)) 0#32 = 1#1) : zR xx inp adj W R.val n.val = negS := by
  unfold zR
  rw [if_neg]
  rintro ⟨_, h'⟩
  exact h h'

end Cert.GatSpec

end
-- ==== Proof.Point.lean ====
/-
  One grid point carries a row's running triple over 1024 more keys.

  If the projected anchor row holds q (r, ·) = the real projected row of anchor R, the key block holds the real rows of
  neighbours N, …, N + 1023 and the adjacency block holds row R's entries against those neighbours, then each half's score
  of key k is the real scaled score z R (N + k) or z R (N + 512 + k); two half-steps of the running triple therefore take
  "holds the first N keys" to "holds the first N + 1024 keys", and from the empty triple to "holds the first 1024 keys".
-/
import proofs.«106654_j85418309583434_2_alg».proof.Proof.Rows
import proofs.«106654_j85418309583434_2_alg».proof.Proof.Spec
import proofs.«106654_j85418309583434_2_alg».proof.Proof.LibRealSum

set_option maxRecDepth 16384

noncomputable section

open Idealize.ShloMosaic Idealize.ShloMosaic.ValueIdx
open Cert.KernelIdeal Cert.KernelIdeal.Gen Cert.OnlineSoftmax Cert.GatPieces Cert.GatRows Cert.GatSpec

namespace Cert.GatPoint

/-- Adjacency entry (R, n); zero outside the array. -/
def rdI (adj : SMN.Idx → BitVec 32) (R n : ℕ) : BitVec 32 :=
  if h : R < 12288 ∧ n < 12288 then adj (ix2 ⟨R, h.1⟩ ⟨n, h.2⟩) else 0#32

theorem rdI_spec (adj : SMN.Idx → BitVec 32) (R n : Fin 12288) : adj (ix2 R n) = rdI adj R.val n.val := by
  unfold rdI
  rw [dif_pos ⟨R.isLt, n.isLt⟩]

theorem live_iff (adj : SMN.Idx → BitVec 32) (R n : ℕ) : live adj R n ↔ IntOp.cmpi .sgt (rdI adj R n) 0#32 = 1#1 := by
  unfold live rdI
  constructor
  · rintro ⟨h, hb⟩
    rw [dif_pos h]; exact hb
  · intro hb
    by_cases h : R < 12288 ∧ n < 12288
    · rw [dif_pos h] at hb; exact ⟨h, hb⟩
    · rw [dif_neg h] at hb; exact absurd hb (by decide)

variable (xx inp : SMD.Idx → EReal) (adj : SMN.Idx → BitVec 32) (W : SDD.Idx → EReal)

theorem zR_pos (R n : ℕ) (h : IntOp.cmpi .sgt (rdI adj R n) 0#32 = 1#1) :
    zR xx inp adj W R n = ∑ e : Fin 128, qR xx W R e.val * rd inp n e.val := by
  unfold zR
  rw [if_pos ((live_iff adj R n).mpr h)]

theorem zR_neg (R n : ℕ) (h : ¬IntOp.cmpi .sgt (rdI adj R n) 0#32 = 1#1) : zR xx inp adj W R n = negS := by
  unfold zR
  rw [if_neg fun hl => h ((live_iff adj R n).mp hl)]

/-- A half's score of key k is the real scaled score of the neighbour that key is. -/
theorem sc_eq (R n : ℕ) (q : FVec Ideal S2048x128 .bf16) (kv : FVec Ideal S512x128 .f32) (ad : IVec S2048x512 32)
    (r : Fin 2048) (k : Fin 512)
    (hq : ∀ e : Fin 128, q (ix2 r e) = ((qR xx W R e.val : ℝ) : EReal))
    (hkv : ∀ e : Fin 128, kv (ix2 k e) = ((rd inp n e.val : ℝ) : EReal))
    (had : ad (ix2 r k) = rdI adj R n) :
    sc q kv ad r k = ((zR xx inp adj W R n : ℝ) : EReal) := by
  unfold sc
  rw [had]
  by_cases hb : IntOp.cmpi .sgt (rdI adj R n) 0#32 = 1#1
  · rw [hb, select_one, zR_pos xx inp adj W R n hb]
    have e1 : (fun e : Fin 128 => q (ix2 r e) * kv (ix2 k e))
        = fun e : Fin 128 => ((qR xx W R e.val : ℝ) : EReal) * ((rd inp n e.val : ℝ) : EReal) :=
      funext fun e => by rw [hq e, hkv e]
    show ∑ e : Fin 128, (fun e : Fin 128 => q (ix2 r e) * kv (ix2 k e)) e = _
    rw [e1]
    exact RealSum.sum_coe_mul _ _
  · rw [eq_zero_of_ne_one hb, select_zero, zR_neg xx inp adj W R n hb]
    rfl

variable (z : ℕ → ℝ) (x : ℕ → Fin 128 → ℝ)
variable (q : FVec Ideal S2048x128 .bf16) (x2 : FVec Ideal S1024x128 .f32) (x3 : IVec S2048x1024 32)

theorem mP_apply (m : FVec Ideal S2048x1 .f32) (r : Fin 2048) :
    mP (F := Ideal) q x2 x3 m (ix2 r (0 : Fin 1))
      = mNew (mNew (m (ix2 r (0 : Fin 1))) (sc q (kvA (F := Ideal) x2) (adA (F := Ideal) x3) r)) (sc q (kvB (F := Ideal) x2) (adB (F := Ideal) x3) r) := by
  unfold mP
  rw [mC_apply, mC_apply]

theorem lP_apply (m l : FVec Ideal S2048x1 .f32) (r : Fin 2048) :
    lP (F := Ideal) q x2 x3 m l (ix2 r (0 : Fin 1))
      = lNew (mNew (m (ix2 r (0 : Fin 1))) (sc q (kvA (F := Ideal) x2) (adA (F := Ideal) x3) r))
          (lNew (m (ix2 r (0 : Fin 1))) (l (ix2 r (0 : Fin 1))) (sc q (kvA (F := Ideal) x2) (adA (F := Ideal) x3) r)) (sc q (kvB (F := Ideal) x2) (adB (F := Ideal) x3) r) := by
  unfold lP
  rw [lC_apply, mC_apply, lC_apply]

theorem aP_apply (m : FVec Ideal S2048x1 .f32) (a : FVec Ideal S2048x128 .f32) (r : Fin 2048) (d : Fin 128) :
    aP (F := Ideal) q x2 x3 m a (ix2 r d)
      = aNew (mNew (m (ix2 r (0 : Fin 1))) (sc q (kvA (F := Ideal) x2) (adA (F := Ideal) x3) r))
          (aNew (m (ix2 r (0 : Fin 1))) (a (ix2 r d)) (sc q (kvA (F := Ideal) x2) (adA (F := Ideal) x3) r) (fun k => kvA (F := Ideal) x2 (ix2 k d)))
          (sc q (kvB (F := Ideal) x2) (adB (F := Ideal) x3) r) (fun k => kvB (F := Ideal) x2 (ix2 k d)) := by
  unfold aP
  rw [aC_apply, mC_apply, aC_apply]

/-- A grid point from a carried state. -/
theorem point_step (N : ℕ) (m l : FVec Ideal S2048x1 .f32) (a : FVec Ideal S2048x128 .f32) (r : Fin 2048)
    (h : RowInv z x N (m (ix2 r (0 : Fin 1))) (l (ix2 r (0 : Fin 1))) (fun d => a (ix2 r d)))
    (hs1 : ∀ k : Fin 512, sc q (kvA (F := Ideal) x2) (adA (F := Ideal) x3) r k = ((z (N + k.val) : ℝ) : EReal))
    (hs2 : ∀ k : Fin 512, sc q (kvB (F := Ideal) x2) (adB (F := Ideal) x3) r k = ((z (N + 512 + k.val) : ℝ) : EReal))
    (hv1 : ∀ (k : Fin 512) (d : Fin 128), kvA (F := Ideal) x2 (ix2 k d) = ((x (N + k.val) d : ℝ) : EReal))
    (hv2 : ∀ (k : Fin 512) (d : Fin 128), kvB (F := Ideal) x2 (ix2 k d) = ((x (N + 512 + k.val) d : ℝ) : EReal)) :
    RowInv z x (N + 512 + 512) (mP (F := Ideal) q x2 x3 m (ix2 r (0 : Fin 1))) (lP (F := Ideal) q x2 x3 m l (ix2 r (0 : Fin 1)))
      (fun d => aP (F := Ideal) q x2 x3 m a (ix2 r d)) := by
  have h1 := inv_step (by norm_num : 0 < 512) z x N _ _ _ h (sc q (kvA (F := Ideal) x2) (adA (F := Ideal) x3) r) (fun k d => kvA (F := Ideal) x2 (ix2 k d)) hs1 hv1
  have h2 := inv_step (by norm_num : 0 < 512) z x (N + 512) _ _ _ h1 (sc q (kvB (F := Ideal) x2) (adB (F := Ideal) x3) r)
    (fun k d => kvB (F := Ideal) x2 (ix2 k d)) hs2 hv2
  rw [mP_apply, lP_apply, funext fun d => aP_apply q x2 x3 m a r d]
  exact h2

/-- The first grid point of an anchor tile, from the empty state. -/
theorem point_init (r : Fin 2048)
    (hs1 : ∀ k : Fin 512, sc q (kvA (F := Ideal) x2) (adA (F := Ideal) x3) r k = ((z k.val : ℝ) : EReal))
    (hs2 : ∀ k : Fin 512, sc q (kvB (F := Ideal) x2) (adB (F := Ideal) x3) r k = ((z (512 + k.val) : ℝ) : EReal))
    (hv1 : ∀ (k : Fin 512) (d : Fin 128), kvA (F := Ideal) x2 (ix2 k d) = ((x k.val d : ℝ) : EReal))
    (hv2 : ∀ (k : Fin 512) (d : Fin 128), kvB (F := Ideal) x2 (ix2 k d) = ((x (512 + k.val) d : ℝ) : EReal)) :
    RowInv z x (512 + 512) (mP (F := Ideal) q x2 x3 (k0_pay6 (F := Ideal)) (ix2 r (0 : Fin 1)))
      (lP (F := Ideal) q x2 x3 (k0_pay6 (F := Ideal)) (k0_pay7 (F := Ideal)) (ix2 r (0 : Fin 1)))
      (fun d => aP (F := Ideal) q x2 x3 (k0_pay6 (F := Ideal)) (k0_pay8 (F := Ideal)) (ix2 r d)) := by
  have h1 := inv_init (by norm_num : 0 < 512) z x (sc q (kvA (F := Ideal) x2) (adA (F := Ideal) x3) r) (fun k d => kvA (F := Ideal) x2 (ix2 k d)) hs1 hv1
  have h2 := inv_step (by norm_num : 0 < 512) z x 512 _ _ _ h1 (sc q (kvB (F := Ideal) x2) (adB (F := Ideal) x3) r)
    (fun k d => kvB (F := Ideal) x2 (ix2 k d)) hs2 hv2
  rw [mP_apply, lP_apply, funext fun d => aP_apply q x2 x3 (k0_pay6 (F := Ideal)) (k0_pay8 (F := Ideal)) r d]
  simp only [m0_apply, l0_apply, a0_apply]
  exact h2

end Cert.GatPoint

end
-- ==== Proof.Cases.lean ====
/-
  A row of an anchor tile through one grid point, stated over the blocks as plain arrays.

  The anchor block holds rows R0, …, R0 + 2047 of the anchors, the key block rows N, …, N + 1023 of the neighbours and the
  adjacency block the entries (R0 + r, N + k). The first half reads key rows 0–511 and adjacency columns 0–511 of the
  blocks, the second half rows and columns 512–1023. Then row r, which held the first N keys of anchor R0 + r, holds the
  first N + 1024; at the first key tile the projection q (r, e) = (∑_d xx (R0 + r, d) · W (d, e)) · c is also computed,
  and once all 12288 keys are held the quotient of the weighted sums by the normaliser is the specification's row.
-/
import proofs.«106654_j85418309583434_2_alg».proof.Proof.Point

set_option maxRecDepth 16384

noncomputable section

open Idealize.ShloMosaic Idealize.ShloMosaic.ValueIdx
open Cert.KernelIdeal Cert.KernelIdeal.Gen Cert.OnlineSoftmax Cert.GatPieces Cert.GatRows Cert.GatSpec Cert.GatPoint

namespace Cert.GatCases

/-! ## The halves of the key and adjacency blocks -/

theorem kvA_apply (x2 : FVec Ideal S1024x128 .f32) (k : Fin 512) (e : Fin 128) :
    kvA (F := Ideal) x2 (ix2 k e) = x2 (ix2 (⟨k.val, by have := k.isLt; omega⟩ : Fin 1024) e) :=
  (RowRead.ld_unit2_apply (Val := Elt Ideal) (e := .f32) x2 0 0 inbKV0 k e).trans
    (congrArg x2 (congrArg₂ ix2 (Fin.ext (Nat.zero_add _)) (Fin.ext (Nat.zero_add _))))

theorem kvB_apply (x2 : FVec Ideal S1024x128 .f32) (k : Fin 512) (e : Fin 128) :
    kvB (F := Ideal) x2 (ix2 k e) = x2 (ix2 (⟨512 + k.val, by have := k.isLt; omega⟩ : Fin 1024) e) :=
  (RowRead.ld_unit2_apply (Val := Elt Ideal) (e := .f32) x2 512 0 inbKV1 k e).trans
    (congrArg x2 (congrArg₂ ix2 rfl (Fin.ext (Nat.zero_add _))))

theorem adA_apply (x3 : IVec S2048x1024 32) (r : Fin 2048) (k : Fin 512) :
    adA (F := Ideal) x3 (ix2 r k) = x3 (ix2 r (⟨k.val, by have := k.isLt; omega⟩ : Fin 1024)) :=
  (RowRead.ld_unit2_apply (Val := Elt Ideal) (e := .i32) x3 0 0 inbAD0 r k).trans
    (congrArg x3 (congrArg₂ ix2 (Fin.ext (Nat.zero_add _)) (Fin.ext (Nat.zero_add _))))

theorem adB_apply (x3 : IVec S2048x1024 32) (r : Fin 2048) (k : Fin 512) :
    adB (F := Ideal) x3 (ix2 r k) = x3 (ix2 r (⟨512 + k.val, by have := k.isLt; omega⟩ : Fin 1024)) :=
  (RowRead.ld_unit2_apply (Val := Elt Ideal) (e := .i32) x3 0 512 inbAD1 r k).trans
    (congrArg x3 (congrArg₂ ix2 (Fin.ext (Nat.zero_add _)) rfl))

variable (xx inp : SMD.Idx → EReal) (adj : SMN.Idx → BitVec 32) (W : SDD.Idx → EReal)
variable (R0 N : ℕ)
variable (q : FVec Ideal S2048x128 .bf16) (x2 : FVec Ideal S1024x128 .f32) (x3 : IVec S2048x1024 32)

/-- Row r carried over the 1024 keys of a grid point. -/
theorem carry_row (m l : FVec Ideal S2048x1 .f32) (a : FVec Ideal S2048x128 .f32) (r : Fin 2048)
    (hx2 : ∀ (k : Fin 1024) (e : Fin 128), x2 (ix2 k e) = ((rd inp (N + k.val) e.val : ℝ) : EReal))
    (hx3 : ∀ (k : Fin 1024), x3 (ix2 r k) = rdI adj (R0 + r.val) (N + k.val))
    (hq : ∀ e : Fin 128, q (ix2 r e) = ((qR xx W (R0 + r.val) e.val : ℝ) : EReal))
    (h : RowInv (zR xx inp adj W (R0 + r.val)) (fun n (d : Fin 128) => rd inp n d.val) N
      (m (ix2 r (0 : Fin 1))) (l (ix2 r (0 : Fin 1))) (fun d => a (ix2 r d))) :
    RowInv (zR xx inp adj W (R0 + r.val)) (fun n (d : Fin 128) => rd inp n d.val) (N + 1024)
      (mP (F := Ideal) q x2 x3 m (ix2 r (0 : Fin 1))) (lP (F := Ideal) q x2 x3 m l (ix2 r (0 : Fin 1)))
      (fun d => aP (F := Ideal) q x2 x3 m a (ix2 r d)) := by
  have hv1 : ∀ (k : Fin 512) (d : Fin 128), kvA (F := Ideal) x2 (ix2 k d) = ((rd inp (N + k.val) d.val : ℝ) : EReal) :=
    fun k d => (kvA_apply x2 k d).trans (hx2 _ d)
  have hv2 : ∀ (k : Fin 512) (d : Fin 128), kvB (F := Ideal) x2 (ix2 k d) = ((rd inp (N + 512 + k.val) d.val : ℝ) : EReal) :=
    fun k d => by rw [kvB_apply, hx2, Nat.add_assoc]
  have hs1 : ∀ k : Fin 512, sc q (kvA (F := Ideal) x2) (adA (F := Ideal) x3) r k
      = ((zR xx inp adj W (R0 + r.val) (N + k.val) : ℝ) : EReal) :=
    fun k => sc_eq xx inp adj W (R0 + r.val) (N + k.val) q _ _ r k hq (fun e => hv1 k e) ((adA_apply x3 r k).trans (hx3 _))
  have hs2 : ∀ k : Fin 512, sc q (kvB (F := Ideal) x2) (adB (F := Ideal) x3) r k
      = ((zR xx inp adj W (R0 + r.val) (N + 512 + k.val) : ℝ) : EReal) :=
    fun k => sc_eq xx inp adj W (R0 + r.val) (N + 512 + k.val) q _ _ r k hq (fun e => hv2 k e)
      (by rw [adB_apply, hx3, Nat.add_assoc])
  have h2 := point_step (zR xx inp adj W (R0 + r.val)) (fun n (d : Fin 128) => rd inp n d.val) q x2 x3 N m l a r h hs1 hs2 hv1 hv2
  have e : N + 512 + 512 = N + 1024 := by omega
  rw [e] at h2
  exact h2

/-- Row r through the first grid point of its anchor tile: the projection, and the first 1024 keys. -/
theorem first_row (x0 : FVec Ideal S2048x128 .f32) (x1 : FVec Ideal S128x128 .f32) (r : Fin 2048)
    (hx0 : ∀ d : Fin 128, x0 (ix2 r d) = ((rd xx (R0 + r.val) d.val : ℝ) : EReal))
    (hx1 : ∀ d e : Fin 128, x1 (ix2 d e) = ((rd W d.val e.val : ℝ) : EReal))
    (hx2 : ∀ (k : Fin 1024) (e : Fin 128), x2 (ix2 k e) = ((rd inp k.val e.val : ℝ) : EReal))
    (hx3 : ∀ (k : Fin 1024), x3 (ix2 r k) = rdI adj (R0 + r.val) k.val) :
    (∀ e : Fin 128, k0_pay5 (F := Ideal) x0 x1 (ix2 r e) = ((qR xx W (R0 + r.val) e.val : ℝ) : EReal)) ∧
    RowInv (zR xx inp adj W (R0 + r.val)) (fun n (d : Fin 128) => rd inp n d.val) 1024
      (mP (F := Ideal) (k0_pay5 (F := Ideal) x0 x1) x2 x3 (k0_pay6 (F := Ideal)) (ix2 r (0 : Fin 1)))
      (lP (F := Ideal) (k0_pay5 (F := Ideal) x0 x1) x2 x3 (k0_pay6 (F := Ideal)) (k0_pay7 (F := Ideal)) (ix2 r (0 : Fin 1)))
      (fun d => aP (F := Ideal) (k0_pay5 (F := Ideal) x0 x1) x2 x3 (k0_pay6 (F := Ideal)) (k0_pay8 (F := Ideal)) (ix2 r d)) := by
  have hq : ∀ e : Fin 128, k0_pay5 (F := Ideal) x0 x1 (ix2 r e) = ((qR xx W (R0 + r.val) e.val : ℝ) : EReal) := fun e => by
    rw [q_apply]
    have e1 : (fun d : Fin 128 => x0 (ix2 r d) * x1 (ix2 d e))
        = fun d : Fin 128 => ((rd xx (R0 + r.val) d.val : ℝ) : EReal) * ((rd W d.val e.val : ℝ) : EReal) :=
      funext fun d => by rw [hx0 d, hx1 d e]
    show (∑ d : Fin 128, (fun d : Fin 128 => x0 (ix2 r d) * x1 (ix2 d e)) d) * _ = _
    rw [e1, RealSum.sum_coe_mul, ← EReal.coe_mul]
    rfl
  refine ⟨hq, ?_⟩
  have hv1 : ∀ (k : Fin 512) (d : Fin 128), kvA (F := Ideal) x2 (ix2 k d) = ((rd inp k.val d.val : ℝ) : EReal) :=
    fun k d => (kvA_apply x2 k d).trans (hx2 _ d)
  have hv2 : ∀ (k : Fin 512) (d : Fin 128), kvB (F := Ideal) x2 (ix2 k d) = ((rd inp (512 + k.val) d.val : ℝ) : EReal) :=
    fun k d => (kvB_apply x2 k d).trans (hx2 _ d)
  have hs1 : ∀ k : Fin 512, sc (k0_pay5 (F := Ideal) x0 x1) (kvA (F := Ideal) x2) (adA (F := Ideal) x3) r k
      = ((zR xx inp adj W (R0 + r.val) k.val : ℝ) : EReal) :=
    fun k => sc_eq xx inp adj W (R0 + r.val) k.val _ _ _ r k hq (fun e => hv1 k e) ((adA_apply x3 r k).trans (hx3 _))
  have hs2 : ∀ k : Fin 512, sc (k0_pay5 (F := Ideal) x0 x1) (kvB (F := Ideal) x2) (adB (F := Ideal) x3) r k
      = ((zR xx inp adj W (R0 + r.val) (512 + k.val) : ℝ) : EReal) :=
    fun k => sc_eq xx inp adj W (R0 + r.val) (512 + k.val) _ _ _ r k hq (fun e => hv2 k e) ((adB_apply x3 r k).trans (hx3 _))
  exact point_init (zR xx inp adj W (R0 + r.val)) (fun n (d : Fin 128) => rd inp n d.val) (k0_pay5 (F := Ideal) x0 x1) x2 x3 r
    hs1 hs2 hv1 hv2

/-- Once all keys are held, the quotient written out is the specification's entry. -/
theorem out_row (l : FVec Ideal S2048x1 .f32) (a : FVec Ideal S2048x128 .f32) (r : Fin 2048) (d : Fin 128) (m0 : EReal)
    (h : RowInv (zR xx inp adj W (R0 + r.val)) (fun n (d : Fin 128) => rd inp n d.val) 12288
      m0 (l (ix2 r (0 : Fin 1))) (fun d => a (ix2 r d))) :
    k0_pay4 (F := Ideal) a l (ix2 r d)
      = ((asum (zR xx inp adj W (R0 + r.val)) (fun n => rd inp n d.val) 0 12288
          / lsum (zR xx inp adj W (R0 + r.val)) 0 12288 : ℝ) : EReal) :=
  (quot_apply l a r d).trans
    (inv_final (zR xx inp adj W (R0 + r.val)) (fun n (d : Fin 128) => rd inp n d.val) (by norm_num) m0 _ _ h d)

end Cert.GatCases

end
-- ==== Proof.Blocks.lean ====
/-
  Where the kernel's blocks sit in the arrays.

  The grid is 6 anchor tiles by 12 key tiles; point t is the pair (t / 12, t % 12). At point t the kernel is handed
  rows 2048 · (t / 12) … of the anchors, the whole weight, rows 1024 · (t % 12) … of the neighbours, the
  [2048, 1024] tile of the adjacency at those two offsets, and it writes rows 2048 · (t / 12) … of the result, which
  are written back at the last key tile (t % 12 = 11) only. A block's coordinate in its array is the block index
  times the block's extent plus the coordinate inside the block; the block indices are decided over the 72 points.
  Every row of the result lies in the block of the last key tile of its anchor tile.
-/
import proofs.«106654_j85418309583434_2_alg».proof.Proof.Gen.KernelIdeal.Frame
import Idealize.ShloMosaic.Lib.ValueIdx

set_option maxRecDepth 16384

noncomputable section

namespace Cert.GatBlocks

open Cert.KernelIdeal Cert.KernelIdeal.Gen Idealize.ShloMosaic Idealize.ShloMosaic.ValueIdx Idealize.ShloMosaic.TcCoe

/-- The block indices of the five windows at every point of the grid. -/
theorem block_index : ∀ t : Fin cfg0.N,
    win0_0.index t (0 : Fin 2) = t.val / 12 ∧ win0_0.index t (1 : Fin 2) = 0
    ∧ win0_1.index t (0 : Fin 2) = 0 ∧ win0_1.index t (1 : Fin 2) = 0
    ∧ win0_2.index t (0 : Fin 2) = t.val % 12 ∧ win0_2.index t (1 : Fin 2) = 0
    ∧ win0_3.index t (0 : Fin 2) = t.val / 12 ∧ win0_3.index t (1 : Fin 2) = t.val % 12
    ∧ win0_4.index t (0 : Fin 2) = t.val / 12 ∧ win0_4.index t (1 : Fin 2) = 0 :=
  (by decide +kernel : ∀ t : Fin grid0.N, _)

variable (m : (ℓ : Loc nD τ sig) → Buf (Elt Ideal) ℓ) (c : Dev nD) (t : Fin cfg0.N)

/-- A point's anchor tile and key tile are in range. -/
theorem tile_lt : t.val / 12 < 6 ∧ t.val % 12 < 12 := by
  have h : t.val < 72 := lt_of_lt_of_eq t.isLt N_0
  omega

/-- The anchors' block: rows 2048 · (t / 12) …. -/
theorem blk0 (r : Fin 2048) (d : Fin 128) :
    iblk m c 0 t (ix2 r d)
      = V m c main_arg0 (ix2 ⟨2048 * (t.val / 12) + r.val, by have := tile_lt t; have := r.isLt; omega⟩ d) := by
  show V m c main_arg0 (((cfg0.win 0).blk t).view.emb (ix2 r d)) = V m c main_arg0 _
  refine congrArg _ ?_
  obtain ⟨e00, e01, -⟩ := block_index t
  funext a; apply Fin.ext
  match a with
  | ⟨0, _⟩ => show win0_0.index t (0 : Fin 2) * 2048 + 1 * r.val = 2048 * (t.val / 12) + r.val; omega
  | ⟨1, _⟩ => show win0_0.index t (1 : Fin 2) * 128 + 1 * d.val = d.val; omega

/-- The weight's block: the whole array. -/
theorem blk1 (d e : Fin 128) : iblk m c 1 t (ix2 d e) = V m c main_arg3 (ix2 d e) := by
  show V m c main_arg3 (((cfg0.win 1).blk t).view.emb (ix2 d e)) = V m c main_arg3 _
  refine congrArg _ ?_
  obtain ⟨-, -, e10, e11, -⟩ := block_index t
  funext a; apply Fin.ext
  match a with
  | ⟨0, _⟩ => show win0_1.index t (0 : Fin 2) * 128 + 1 * d.val = d.val; omega
  | ⟨1, _⟩ => show win0_1.index t (1 : Fin 2) * 128 + 1 * e.val = e.val; omega

/-- The neighbours' block: rows 1024 · (t % 12) …. -/
theorem blk2 (k : Fin 1024) (e : Fin 128) :
    iblk m c 2 t (ix2 k e)
      = V m c main_arg1 (ix2 ⟨1024 * (t.val % 12) + k.val, by have := tile_lt t; have := k.isLt; omega⟩ e) := by
  show V m c main_arg1 (((cfg0.win 2).blk t).view.emb (ix2 k e)) = V m c main_arg1 _
  refine congrArg _ ?_
  obtain ⟨-, -, -, -, e20, e21, -⟩ := block_index t
  funext a; apply Fin.ext
  match a with
  | ⟨0, _⟩ => show win0_2.index t (0 : Fin 2) * 1024 + 1 * k.val = 1024 * (t.val % 12) + k.val; omega
  | ⟨1, _⟩ => show win0_2.index t (1 : Fin 2) * 128 + 1 * e.val = e.val; omega

/-- The adjacency's block: the tile at rows 2048 · (t / 12) …, columns 1024 · (t % 12) …. -/
theorem blk3 (r : Fin 2048) (k : Fin 1024) :
    iblk m c 3 t (ix2 r k)
      = V m c main_arg2 (ix2 ⟨2048 * (t.val / 12) + r.val, by have := tile_lt t; have := r.isLt; omega⟩
          ⟨1024 * (t.val % 12) + k.val, by have := tile_lt t; have := k.isLt; omega⟩) := by
  show V m c main_arg2 (((cfg0.win 3).blk t).view.emb (ix2 r k)) = V m c main_arg2 _
  refine congrArg _ ?_
  obtain ⟨-, -, -, -, -, -, e30, e31, -⟩ := block_index t
  funext a; apply Fin.ext
  match a with
  | ⟨0, _⟩ => show win0_3.index t (0 : Fin 2) * 2048 + 1 * r.val = 2048 * (t.val / 12) + r.val; omega
  | ⟨1, _⟩ => show win0_3.index t (1 : Fin 2) * 1024 + 1 * k.val = 1024 * (t.val % 12) + k.val; omega

/-- The result's block is written back at the last key tile only. -/
theorem flush_iff : (cfg0.win 4).flush t = true ↔ t.val % 12 = 11 := flush0_4 t

/-- The result's block: rows 2048 · (t / 12) …. -/
theorem emb4 (r : Fin 2048) (d : Fin 128) :
    ((cfg0.win 4).blk t).view.emb (ix2 r d)
      = ix2 ⟨2048 * (t.val / 12) + r.val, by have := tile_lt t; have := r.isLt; omega⟩ d := by
  obtain ⟨-, -, -, -, -, -, -, -, e40, e41⟩ := block_index t
  funext a; apply Fin.ext
  match a with
  | ⟨0, _⟩ => show win0_4.index t (0 : Fin 2) * 2048 + 1 * r.val = 2048 * (t.val / 12) + r.val; omega
  | ⟨1, _⟩ => show win0_4.index t (1 : Fin 2) * 128 + 1 * d.val = d.val; omega

/-- An index of the result is in a point's block iff each coordinate is in the block's range on its axis. -/
theorem mem_blk4 (i : S12288x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v0).slice (win0_4.rect t)).set ↔ _
  rw [View.set_slice_whole, Rect.mem_set_unit]
  exact Iff.rfl

/-- Every index of the result is in a block that is written back: that of the last key tile of its anchor tile. -/
theorem cover4 (i : S12288x128.Idx) :
    ∃ t : Fin cfg0.N, (cfg0.win 4).flush t = true ∧ i ∈ ((cfg0.win 4).blk t).view.set := by
  have hi0 : (i 0).val < 12288 := (i 0).isLt
  have hi1 : (i 1).val < 128 := (i 1).isLt
  have hlt : 12 * ((i 0).val / 2048) + 11 < cfg0.N :=
    lt_of_lt_of_eq (by omega : 12 * ((i 0).val / 2048) + 11 < 72) N_0.symm
  have hval : (⟨12 * ((i 0).val / 2048) + 11, hlt⟩ : Fin cfg0.N).val = 12 * ((i 0).val / 2048) + 11 := rfl
  obtain ⟨-, -, -, -, -, -, -, -, e40, e41⟩ := block_index ⟨12 * ((i 0).val / 2048) + 11, hlt⟩
  refine ⟨⟨12 * ((i 0).val / 2048) + 11, hlt⟩, (flush0_4 _).mpr (by rw [hval]; omega), ?_⟩
  rw [mem_blk4]
  rw [hval] at e40
  intro a
  match a with
  | ⟨0, _⟩ =>
    show win0_4.index ⟨12 * ((i 0).val / 2048) + 11, hlt⟩ (0 : Fin 2) * 2048 ≤ (i 0).val
      ∧ (i 0).val < win0_4.index ⟨12 * ((i 0).val / 2048) + 11, hlt⟩ (0 : Fin 2) * 2048 + 2048
    omega
  | ⟨1, _⟩ =>
    show win0_4.index ⟨12 * ((i 0).val / 2048) + 11, hlt⟩ (1 : Fin 2) * 128 ≤ (i 1).val
      ∧ (i 1).val < win0_4.index ⟨12 * ((i 0).val / 2048) + 11, hlt⟩ (1 : Fin 2) * 128 + 128
    omega

end Cert.GatBlocks

end
-- ==== Proof.Invariant.lean ====
/-
  The carried buffers after every grid point, and the array the kernel leaves.

  Grid point t is key tile t mod 12 of anchor tile t div 12. By induction along the points: after point t, row r of the
  carried buffers holds the projected row of anchor 2048 · (t div 12) + r and the running triple of that anchor over its
  first 1024 · (t mod 12) + 1024 neighbours — the first key tile starts from the empty triple, every later one from what
  the point before left. At the last key tile all 12288 neighbours are held, so the block written back is the block of
  the specification, and the six blocks written back cover the result.
-/
import proofs.«106654_j85418309583434_2_alg».proof.Proof.Cases
import proofs.«106654_j85418309583434_2_alg».proof.Proof.Blocks
import proofs.«106654_j85418309583434_2_alg».proof.Proof.Gen.KernelIdeal.Value

set_option maxRecDepth 16384

noncomputable section

open Idealize.ShloMosaic Idealize.ShloMosaic.ValueIdx Idealize.ShloMosaic.TcCoe Idealize.SL.Sem
open Idealize.ShloMosaic.Pipeline (Dat)
open Cert.KernelIdeal Cert.KernelIdeal.Gen Cert.OnlineSoftmax Cert.GatPieces Cert.GatRows Cert.GatSpec Cert.GatPoint Cert.GatCases
open Cert.GatBlocks

namespace Cert.GatInv

variable (m : (ℓ : Loc nD τ sig) → Buf (Elt Ideal) ℓ) (c : Dev nD)

/-- The anchors, the neighbours, the adjacency and the weight as the region finds them. -/
abbrev aXX : SMD.Idx → EReal := V m c main_arg0
abbrev aINP : SMD.Idx → EReal := V m c main_arg1
abbrev aADJ : SMN.Idx → BitVec 32 := V m c main_arg2
abbrev aWW : SDD.Idx → EReal := V m c main_arg3

/-- After point n, row r: the projected anchor row, and the running triple over the key tiles done so far. -/
def RowAt (n : ℕ) (hn : n < cfg0.N) (r : Fin 2048) : Prop :=
  (∀ e : Fin 128, (outsAt0 m c n hn).2.1 (ix2 r e)
      = ((qR (aXX m c) (aWW m c) (2048 * (n / 12) + r.val) e.val : ℝ) : EReal)) ∧
  RowInv (zR (aXX m c) (aINP m c) (aADJ m c) (aWW m c) (2048 * (n / 12) + r.val)) (fun k (d : Fin 128) => rd (aINP m c) k d.val)
    (1024 * (n % 12) + 1024)
    ((outsAt0 m c n hn).2.2.1 (ix2 r (0 : Fin 1))) ((outsAt0 m c n hn).2.2.2.1 (ix2 r (0 : Fin 1)))
    (fun d => (outsAt0 m c n hn).2.2.2.2 (ix2 r d))

variable (hxx : ∀ i, ∃ r : ℝ, aXX m c i = (r : EReal)) (hinp : ∀ i, ∃ r : ℝ, aINP m c i = (r : EReal))
  (hW : ∀ i, ∃ r : ℝ, aWW m c i = (r : EReal))

/-! ## The blocks as real readings of the arrays -/

include hxx in
theorem b0 (t : Fin cfg0.N) (r : Fin 2048) (d : Fin 128) :
    iblk m c 0 t (ix2 r d) = ((rd (aXX m c) (2048 * (t.val / 12) + r.val) d.val : ℝ) : EReal) :=
  (blk0 m c t r d).trans (rd_spec (aXX m c) hxx _ d)

include hW in
theorem b1 (t : Fin cfg0.N) (d e : Fin 128) : iblk m c 1 t (ix2 d e) = ((rd (aWW m c) d.val e.val : ℝ) : EReal) :=
  (blk1 m c t d e).trans (rd_spec (aWW m c) hW d e)

include hinp in
theorem b2 (t : Fin cfg0.N) (k : Fin 1024) (e : Fin 128) :
    iblk m c 2 t (ix2 k e) = ((rd (aINP m c) (1024 * (t.val % 12) + k.val) e.val : ℝ) : EReal) :=
  (blk2 m c t k e).trans (rd_spec (aINP m c) hinp _ e)

theorem b3 (t : Fin cfg0.N) (r : Fin 2048) (k : Fin 1024) :
    iblk m c 3 t (ix2 r k) = rdI (aADJ m c) (2048 * (t.val / 12) + r.val) (1024 * (t.val % 12) + k.val) :=
  (blk3 m c t r k).trans (rdI_spec (aADJ m c) _ _)

/-! ## The three kinds of grid point -/

include hxx hinp hW in
theorem rowA (t : Fin cfg0.N) (h0 : t.val % 12 = 0) (r : Fin 2048) : RowAt m c t.val t.isLt r := by
  have h1 : ¬t.val % 12 = 11 := by omega
  unfold RowAt
  rw [outsAt0_A m c t h0 h1]
  dsimp only
  rw [sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t),
    sout_A_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t)]
  have hx2 : ∀ (k : Fin 1024) (e : Fin 128), iblk m c 2 t (ix2 k e) = ((rd (aINP m c) k.val e.val : ℝ) : EReal) := fun k e => by
    have h := b2 m c hinp t k e
    rw [h0, Nat.mul_zero, Nat.zero_add] at h
    exact h
  have hx3 : ∀ (k : Fin 1024), iblk m c 3 t (ix2 r k) = rdI (aADJ m c) (2048 * (t.val / 12) + r.val) k.val := fun k => by
    have h := b3 m c t r k
    rw [h0, Nat.mul_zero, Nat.zero_add] at h
    exact h
  have h := first_row (aXX m c) (aINP m c) (aADJ m c) (aWW m c) (2048 * (t.val / 12)) (iblk m c 2 t) (iblk m c 3 t) (iblk m c 0 t) (iblk m c 1 t) r
    (fun d => b0 m c hxx t r d) (fun d e => b1 m c hW t d e) hx2 hx3
  rw [h0, Nat.mul_zero, Nat.zero_add]
  exact h

include hinp in
theorem rowB (t : Fin cfg0.N) (h0 : ¬t.val % 12 = 0) (h1 : ¬t.val % 12 = 11) (r : Fin 2048)
    (hprev : RowAt m c (t.val - 1) (Nat.lt_of_le_of_lt (Nat.sub_le _ _) t.isLt) r) : RowAt m c t.val t.isLt r := by
  unfold RowAt at hprev ⊢
  have e1 : (t.val - 1) / 12 = t.val / 12 := by omega
  have e2 : 1024 * ((t.val - 1) % 12) + 1024 = 1024 * (t.val % 12) := by omega
  rw [e1, e2] at hprev
  obtain ⟨hq, hinv⟩ := hprev
  rw [outsAt0_B m c t h0 h1]
  dsimp only
  rw [sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  refine ⟨hq, ?_⟩
  exact carry_row (aXX m c) (aINP m c) (aADJ m c) (aWW m c) (2048 * (t.val / 12)) (1024 * (t.val % 12)) (outsAt0 m c (t.val - 1) (Nat.lt_of_le_of_lt (Nat.sub_le _ _) t.isLt)).2.1 (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r
    (fun k e => b2 m c hinp t k e) (fun k => b3 m c t r k) hq hinv

include hinp in
theorem rowC (t : Fin cfg0.N) (h0 : ¬t.val % 12 = 0) (h1 : t.val % 12 = 11) (r : Fin 2048)
    (hprev : RowAt m c (t.val - 1) (Nat.lt_of_le_of_lt (Nat.sub_le _ _) t.isLt) r) : RowAt m c t.val t.isLt r := by
  unfold RowAt at hprev ⊢
  have e1 : (t.val - 1) / 12 = t.val / 12 := by omega
  have e2 : 1024 * ((t.val - 1) % 12) + 1024 = 1024 * (t.val % 12) := by omega
  rw [e1, e2] at hprev
  obtain ⟨hq, hinv⟩ := hprev
  rw [outsAt0_C m c t h0 h1]
  dsimp only
  rw [sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    sout_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  refine ⟨hq, ?_⟩
  exact carry_row (aXX m c) (aINP m c) (aADJ m c) (aWW m c) (2048 * (t.val / 12)) (1024 * (t.val % 12)) (outsAt0 m c (t.val - 1) (Nat.lt_of_le_of_lt (Nat.sub_le _ _) t.isLt)).2.1 (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r
    (fun k e => b2 m c hinp t k e) (fun k => b3 m c t r k) hq hinv

/-! ## Along the points -/

include hxx hinp hW in
theorem rowAt_all : ∀ (n : ℕ) (hn : n < cfg0.N) (r : Fin 2048), RowAt m c n hn r := by
  intro n
  induction n with
  | zero => intro hn r; exact rowA m c hxx hinp hW ⟨0, hn⟩ rfl r
  | succ n ih =>
    intro hn r
    by_cases h0 : (n + 1) % 12 = 0
    · exact rowA m c hxx hinp hW ⟨n + 1, hn⟩ h0 r
    · have hp := ih (Nat.lt_of_succ_lt hn) r
      by_cases h1 : (n + 1) % 12 = 11
      · exact rowC m c hinp ⟨n + 1, hn⟩ h0 h1 r hp
      · exact rowB m c hinp ⟨n + 1, hn⟩ h0 h1 r hp

/-! ## What is written back, and the array after the run -/

include hxx hinp hW in
/-- At a last key tile the block written back is the specification's block. -/
theorem flushed_eq (t : Fin cfg0.N) (hf : (cfg0.win 4).flush t = true) :
    (dats m 0 c).flushed 4 t = ((cfg0.win 4).blk t).view.read (Elt Ideal) (G (aXX m c) (aINP m c) (aADJ m c) (aWW m c)) := by
  have h1 : t.val % 12 = 11 := (flush_iff t).mp hf
  have h0 : ¬t.val % 12 = 0 := by omega
  have hN : cfg0.N = 72 := N_0
  have hpos : 0 < t.val := by omega
  rw [Value.flushed4_C m c t h0 h1]
  rw [out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  funext j
  obtain ⟨r, d, rfl⟩ : ∃ (r : Fin 2048) (d : Fin 128), j = ix2 r d := ⟨j 0, j 1, eq_ix2 j⟩
  show k0_pay4 (F := Ideal) (aP (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.2)
      (lP (F := Ideal) (outsAt0 m c (t.val - 1) (Nat.lt_of_le_of_lt (Nat.sub_le _ _) t.isLt)).2.1 (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1) (ix2 r d)
    = G (aXX m c) (aINP m c) (aADJ m c) (aWW m c) (((cfg0.win 4).blk t).view.emb (ix2 r d))
  rw [emb4 t r d]
  have hprev := rowAt_all m c hxx hinp hW (t.val - 1) (Nat.lt_of_le_of_lt (Nat.sub_le _ _) t.isLt) r
  unfold RowAt at hprev
  have e1 : (t.val - 1) / 12 = t.val / 12 := by omega
  have e2 : 1024 * ((t.val - 1) % 12) + 1024 = 1024 * (t.val % 12) := by omega
  rw [e1, e2] at hprev
  obtain ⟨hq, hinv⟩ := hprev
  have hrow := carry_row (aXX m c) (aINP m c) (aADJ m c) (aWW m c) (2048 * (t.val / 12)) (1024 * (t.val % 12)) (outsAt0 m c (t.val - 1) (Nat.lt_of_le_of_lt (Nat.sub_le _ _) t.isLt)).2.1 (iblk m c 2 t) (iblk m c 3 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r
    (fun k e => b2 m c hinp t k e) (fun k => b3 m c t r k) hq hinv
  have e3 : 1024 * (t.val % 12) + 1024 = 12288 := by omega
  rw [e3] at hrow
  exact out_row (aXX m c) (aINP m c) (aADJ m c) (aWW m c) (2048 * (t.val / 12)) _ _ r d _ hrow

include hxx hinp hW in
/-- The result array after the run is the specification. -/
theorem final : (dats m 0 c).arrAt 4 cfg0.N = G (aXX m c) (aINP m c) (aADJ m c) (aWW m c) :=
  (dats m 0 c).arrAt_eq_of_cover 4 (G (aXX m c) (aINP m c) (aADJ m c) (aWW m c)) (fun t hf => flushed_eq m c hxx hinp hW t hf) cover4

end Cert.GatInv

end
-- ==== Proof.RefLit.lean ====
/-
  The two single-precision literals of the reference, as real numbers: the temperature 0.07 is the fraction
  9395241 / 2²⁷, and the padding score is −2³².
-/
import Idealize.ShloMosaic.PureOps.Ideal

noncomputable section

open Idealize.ShloMosaic

namespace Cert.GatRef

/-- The temperature's single-precision value. -/
theorem temp_f32 : Ideal.ofBits .f32 0x3D8F5C29#32 = ((9395241 / 134217728 : ℝ) : EReal) := by
  simp [Ideal.ofBits, Ideal.ieee, -EReal.coe_mul]; norm_num

/-- The padding score. -/
theorem pad_f32 : Ideal.ofBits .f32 0xCF800000#32 = ((-4294967296 : ℝ) : EReal) := by
  simp [Ideal.ofBits, Ideal.ieee, -EReal.coe_mul]; norm_num

end Cert.GatRef

end
-- ==== Proof.RefScore.lean ====
/-
  The reference's scaled scores. Entry (R, n) of the score matrix of the reference is the projected anchor row R
  contracted with neighbour n where the two are adjacent and the padding score elsewhere, divided by the temperature;
  for real data this is the real number zR R n of the specification: dividing by 9395241 / 2²⁷ is multiplying by
  2²⁷ / 9395241, a factor that moves inside the contraction, and −2³² over the temperature is −2⁵⁹ / 9395241.
-/
import proofs.«106654_j85418309583434_2_alg».proof.Proof.Spec
import proofs.«106654_j85418309583434_2_alg».proof.Proof.RefLit
import proofs.«106654_j85418309583434_2_alg».proof.Proof.LibRealSum
import proofs.«106654_j85418309583434_2_alg».proof.Proof.Gen.ReferenceIdeal.Read

noncomputable section

open Idealize.ShloMosaic Idealize.ShloMosaic.ValueIdx Cert.GatSpec Cert.ReferenceIdeal Cert.ReferenceIdeal.Read

namespace Cert.GatRef

/-! ## The contractions' operand indices at explicit coordinates -/

theorem lidx_v0 (e : Fin 128) (R : Fin 12288) (d : Fin 128) : lidx_main_v0 (ix2 e R) d = ix2 d e := by
  funext a; match a with | ⟨0, _⟩ => rfl | ⟨1, _⟩ => rfl

theorem ridx_v0 (e : Fin 128) (R : Fin 12288) (d : Fin 128) : ridx_main_v0 (ix2 e R) d = ix2 R d := by
  funext a; match a with | ⟨0, _⟩ => rfl | ⟨1, _⟩ => rfl

theorem lidx_v1 (R n : Fin 12288) (e : Fin 128) : lidx_main_v1 (ix2 R n) e = ix2 e R := by
  funext a; match a with | ⟨0, _⟩ => rfl | ⟨1, _⟩ => rfl

theorem ridx_v1 (R n : Fin 12288) (e : Fin 128) : ridx_main_v1 (ix2 R n) e = ix2 n e := by
  funext a; match a with | ⟨0, _⟩ => rfl | ⟨1, _⟩ => rfl

variable (xx inp : SMD.Idx → EReal) (adj : SMN.Idx → BitVec 32) (W : SDD.Idx → EReal)

/-- The projected anchor: entry (e, R) is the real sum over d of W d e · xx R d. -/
theorem v0_eq (hxx : ∀ i, ∃ r : ℝ, xx i = (r : EReal)) (hW : ∀ i, ∃ r : ℝ, W i = (r : EReal)) (e : Fin 128) (R : Fin 12288) :
    val_main_v0 (F := Ideal) xx W (ix2 e R)
      = ((∑ d : Fin 128, rd W d.val e.val * rd xx R.val d.val : ℝ) : EReal) := by
  rw [val_main_v0_apply, ← RealSum.sum_coe_mul]
  refine Finset.sum_congr rfl fun d _ => ?_
  rw [lidx_v0, ridx_v0, rd_spec W hW d e, rd_spec xx hxx R d]

/-- The raw scores: entry (R, n) is the projected anchor row R contracted with neighbour n. -/
theorem v1_eq (hxx : ∀ i, ∃ r : ℝ, xx i = (r : EReal)) (hinp : ∀ i, ∃ r : ℝ, inp i = (r : EReal))
    (hW : ∀ i, ∃ r : ℝ, W i = (r : EReal)) (R n : Fin 12288) :
    val_main_v1 (F := Ideal) xx inp W (ix2 R n)
      = ((∑ e : Fin 128, (∑ d : Fin 128, rd W d.val e.val * rd xx R.val d.val) * rd inp n.val e.val : ℝ) : EReal) := by
  rw [val_main_v1_apply, ← RealSum.sum_coe_mul]
  refine Finset.sum_congr rfl fun e _ => ?_
  rw [lidx_v1, ridx_v1, v0_eq xx W hxx hW, rd_spec inp hinp n e]

/-- The scaled, padded scores are the specification's. -/
theorem v6_eq (hxx : ∀ i, ∃ r : ℝ, xx i = (r : EReal)) (hinp : ∀ i, ∃ r : ℝ, inp i = (r : EReal))
    (hW : ∀ i, ∃ r : ℝ, W i = (r : EReal)) (R n : Fin 12288) :
    val_main_v6 (F := Ideal) xx inp adj W (ix2 R n) = ((zR xx inp adj W R.val n.val : ℝ) : EReal) := by
  rw [val_main_v6_apply, val_main_v4_apply, val_main_v3_apply, val_main_v2_apply, val_main_c_apply,
    val_main_call0_v0_apply, val_main_cst_apply, val_main_v5_apply, val_main_cst_0_apply,
    v1_eq xx inp W hxx hinp hW]
  simp only [Ideal.ofBits_def, Ideal.hostDivf_def]
  rw [temp_f32, pad_f32]
  by_cases h : IntOp.cmpi .sgt (adj (ix2 R n)) 0#32 = 1#1
  · rw [h, select_one, zR_live R n h, Ideal.div_coe (by norm_num), ← EReal.coe_mul]
    congr 1
    rw [Finset.sum_mul]
    refine Finset.sum_congr rfl fun e _ => ?_
    have hc : (∑ d : Fin 128, rd W d.val e.val * rd xx R.val d.val)
        = ∑ d : Fin 128, rd xx R.val d.val * rd W d.val e.val :=
      Finset.sum_congr rfl fun d _ => mul_comm _ _
    unfold qR cInv
    rw [hc]
    ring
  · rw [eq_zero_of_ne_one h, select_zero, zR_dead R n h, Ideal.div_coe (by norm_num), ← EReal.coe_mul]
    congr 1
    unfold negS
    norm_num

end Cert.GatRef

end
-- ==== Proof.RefValue.lean ====
/-
  The reference's result is the specification.

  Row R of the reference: the scores of the row, shifted by their maximum (taken from −∞, and once more against −∞, which
  changes nothing), exponentiated, divided by their sum (taken from 0), and contracted with the neighbours' features.
  That is a softmax computed in one pass; with the scores of the row the real numbers zR R n it is the
  softmax-weighted mean G of the specification.
-/
import proofs.«106654_j85418309583434_2_alg».proof.Proof.Spec
import proofs.«106654_j85418309583434_2_alg».proof.Proof.LibOnlineSoftmax
import proofs.«106654_j85418309583434_2_alg».proof.Proof.LibRowMax
import proofs.«106654_j85418309583434_2_alg».proof.Proof.RefScore
import proofs.«106654_j85418309583434_2_alg».proof.Proof.Gen.ReferenceIdeal.Read

noncomputable section

open Idealize.ShloMosaic Idealize.ShloMosaic.ValueIdx Cert.GatSpec Cert.ReferenceIdeal Cert.ReferenceIdeal.Read

namespace Cert.GatRef

/-! ## Operand indices at explicit coordinates -/

theorem lidx_v18 (R : Fin 12288) (d : Fin 128) (n : Fin 12288) : lidx_main_v18 (ix2 R d) n = ix2 R n := by
  funext a; match a with | ⟨0, _⟩ => rfl | ⟨1, _⟩ => rfl

theorem ridx_v18 (R : Fin 12288) (d : Fin 128) (n : Fin 12288) : ridx_main_v18 (ix2 R d) n = ix2 n d := by
  funext a; match a with | ⟨0, _⟩ => rfl | ⟨1, _⟩ => rfl

/-- A row's statistic broadcast to [12288, 1] and then along the row is read at the row. -/
theorem idx_v11 (R n : Fin 12288) : idx_main_v10 (idx_main_v11 (ix2 R n)) = ix1 R := by
  funext a; match a with | ⟨0, _⟩ => rfl

theorem idx_v16 (R n : Fin 12288) : idx_main_v15 (idx_main_v16 (ix2 R n)) = ix1 R := by
  funext a; match a with | ⟨0, _⟩ => rfl

theorem idx_v14 (R k : Fin 12288) : idx_main_v14 (ix1 R) k = ix2 R k := by
  funext a; match a with | ⟨0, _⟩ => rfl | ⟨1, _⟩ => rfl

variable (xx inp : SMD.Idx → EReal) (adj : SMN.Idx → BitVec 32) (W : SDD.Idx → EReal)

/-! ## One row, for scores S of the row -/

/-- The shift: the row's maximum from −∞. -/
theorem v11_eq (R : Fin 12288) (S : Fin 12288 → EReal)
    (hS : ∀ j, val_main_v6 (F := Ideal) xx inp adj W (ix2 R j) = S j) (n : Fin 12288) :
    val_main_v11 (F := Ideal) xx inp adj W (ix2 R n) = (Finset.univ : Finset (Fin 12288)).fold max ⊥ S := by
  rw [val_main_v11_apply, val_main_v10_apply, idx_v11, val_main_v9_apply, val_main_v8_apply, val_main_cst_2_apply,
    Ideal.ofBits_def, Ideal.maximumf_def, Cert.LibRowMax.negInf_f32, max_eq_right bot_le]
  unfold val_main_v7
  refine (Cert.LibRowMax.hostRowMax_apply _ _ _ (by decide) _ ?_ R).trans ?_
  · rw [val_main_cst_1_apply, Ideal.ofBits_def]
    exact Cert.LibRowMax.negInf_f32
  · exact congrArg (fun f => Finset.fold max ⊥ f (Finset.univ : Finset (Fin 12288))) (funext hS)

/-- The weights before normalising. -/
theorem v13_eq (R : Fin 12288) (S : Fin 12288 → EReal)
    (hS : ∀ j, val_main_v6 (F := Ideal) xx inp adj W (ix2 R j) = S j) (n : Fin 12288) :
    val_main_v13 (F := Ideal) xx inp adj W (ix2 R n)
      = Ideal.exp (S n - (Finset.univ : Finset (Fin 12288)).fold max ⊥ S) := by
  rw [val_main_v13_apply, val_main_v12_apply, v11_eq xx inp adj W R S hS, hS n]
  rfl

/-- The normaliser: the row's sum from 0. -/
theorem v16_eq (R : Fin 12288) (S : Fin 12288 → EReal)
    (hS : ∀ j, val_main_v6 (F := Ideal) xx inp adj W (ix2 R j) = S j) (n : Fin 12288) :
    val_main_v16 (F := Ideal) xx inp adj W (ix2 R n)
      = ∑ k : Fin 12288, Ideal.exp (S k - (Finset.univ : Finset (Fin 12288)).fold max ⊥ S) := by
  rw [val_main_v16_apply, val_main_v15_apply, idx_v16, val_main_v14_apply, val_main_cst_3_apply,
    Ideal.ofBits_def, Ideal.ofBits_zero_f32, zero_add]
  exact Finset.sum_congr rfl fun k _ => by rw [idx_v14, v13_eq xx inp adj W R S hS]

/-- The row of the result as a one-pass softmax of the scores S. -/
theorem row_form (R : Fin 12288) (S : Fin 12288 → EReal)
    (hS : ∀ j, val_main_v6 (F := Ideal) xx inp adj W (ix2 R j) = S j) (d : Fin 128) :
    val_main_v18 (F := Ideal) xx inp adj W (ix2 R d)
      = ∑ n : Fin 12288, Ideal.div (Ideal.exp (S n - (Finset.univ : Finset (Fin 12288)).fold max ⊥ S))
          (∑ n' : Fin 12288, Ideal.exp (S n' - (Finset.univ : Finset (Fin 12288)).fold max ⊥ S)) * inp (ix2 n d) := by
  rw [val_main_v18_apply]
  refine Finset.sum_congr rfl fun n _ => ?_
  rw [lidx_v18, ridx_v18, val_main_v17_apply, v16_eq xx inp adj W R S hS, v13_eq xx inp adj W R S hS]
  rfl

/-! ## The result -/

/-- Row R, feature d of the reference is the softmax-weighted mean of the specification. -/
theorem row_eq (hxx : ∀ i, ∃ r : ℝ, xx i = (r : EReal)) (hinp : ∀ i, ∃ r : ℝ, inp i = (r : EReal))
    (hW : ∀ i, ∃ r : ℝ, W i = (r : EReal)) (R : Fin 12288) (d : Fin 128) :
    val_main_v18 (F := Ideal) xx inp adj W (ix2 R d)
      = ((Cert.OnlineSoftmax.asum (zR xx inp adj W R.val) (fun n => rd inp n d.val) 0 12288
          / Cert.OnlineSoftmax.lsum (zR xx inp adj W R.val) 0 12288 : ℝ) : EReal) := by
  rw [row_form xx inp adj W R (fun j => ((zR xx inp adj W R.val j.val : ℝ) : EReal))
    (fun j => v6_eq xx inp adj W hxx hinp hW R j) d]
  exact Cert.OnlineSoftmax.onepass (N := 12288) (by norm_num) (zR xx inp adj W R.val)
    (fun n (d : Fin 128) => rd inp n d.val)
    (fun j : Fin 12288 => ((zR xx inp adj W R.val j.val : ℝ) : EReal))
    (fun (n : Fin 12288) (d : Fin 128) => inp (ix2 n d))
    (fun _ => rfl) (fun n d => rd_spec inp hinp n d) d

/-- The reference's result is the specification. -/
theorem ref_eq (xx inp : Cert.GatSpec.SMD.Idx → EReal) (adj : Cert.GatSpec.SMN.Idx → BitVec 32)
    (W : Cert.GatSpec.SDD.Idx → EReal)
    (hxx : ∀ i, ∃ r : ℝ, xx i = (r : EReal)) (hinp : ∀ i, ∃ r : ℝ, inp i = (r : EReal))
    (hW : ∀ i, ∃ r : ℝ, W i = (r : EReal)) :
    Cert.ReferenceIdeal.Read.val_main_v18 (F := Ideal) xx inp adj W = Cert.GatSpec.G xx inp adj W := by
  funext i
  obtain ⟨R, d, rfl⟩ : ∃ (R : Fin 12288) (d : Fin 128), i = ix2 R d := ⟨i 0, i 1, eq_ix2 i⟩
  exact row_eq xx inp adj W hxx hinp hW R d

end Cert.GatRef

end
-- ==== Proof.LibAllFinite.lean ====
/-
  A `finite inputs` precondition decoded. A printed precondition states, of a float array `a`, that
  `jnp.all(|a| < +inf)` is true: the `and`-reduction, to a single bit, of the comparison of `|a|` against the broadcast
  word 0x7F800000. At the extended reals that word is `⊤` and `|x| = max x (-x)` is `⊤` at both infinities, so the
  bit being 1 says exactly that every entry of `a` is a real number. Stated for any shape, any broadcast witness
  and any reduction witness, so that one use per argument array decodes a whole precondition; the join of the
  arrays' bits by `and` splits with `andi_apply_eq_one`.
-/
import Idealize.ShloMosaic.PureOps.Ideal
import Idealize.ShloMosaic.Lib.ReduceAll
import Idealize.ShloMosaic.Lib.ValueIdx

noncomputable section

namespace Idealize.ShloMosaic.AllFinite

open Idealize.ShloMosaic

/-- The rank-0 shape of a single bit or a scalar. -/
abbrev S0 : Shape := ⟨0, ![]⟩

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value `max x (-x)` is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance : Subsingleton S0.Idx := ⟨fun a b => funext fun d => d.elim0⟩

/-- Where the comparison `|a| < broadcast(+∞)` is 1 at an index, the array holds a real there. -/
theorem real_of_cmp {S : Shape} (a : FVec Ideal S .f32) (dims : Fin S0.rank → Fin S.rank)
    (hb : S0.BroadcastsInDim S dims) (i : S.Idx)
    (h : cmpf .olt (Host.absf a) (broadcastInDim S dims hb (constant S0 .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  apply real_of_abs_lt_top
  unfold Ideal.cmp at h'
  by_contra hn
  simp only [hn, decide_false] at h'
  exact absurd h' (by decide)

/-- The conjunction over all indices of `|a i| < +∞` being 1 gives a real at every index. -/
theorem real_of_all {S : Shape} {axes : List (Fin S.rank)} (a : FVec Ideal S .f32) (dims : Fin S0.rank → Fin S.rank)
    (hb : S0.BroadcastsInDim S dims) (hr : S.ReducesTo axes S0) (hu : 0 < S0.numel)
    (e : Host.reduce IntOp.andi (cmpf .olt (Host.absf a) (broadcastInDim S dims hb (constant S0 .f32 0x7F800000#32)))
      (constantI S0 1 1#1) hr hu ValueIdx.ix0 = 1#1) (i : S.Idx) : ∃ r : ℝ, a i = (r : EReal) :=
  real_of_cmp a dims hb i (Host.reduce_andi_all _ _ hr hu _ e i)

/-- The join of two one-bit results at an index is 1 exactly when both are. -/
theorem andi_apply_eq_one {s : Shape} (x y : IVec s 1) (i : s.Idx) : andi x y i = 1#1 ↔ x i = 1#1 ∧ y i = 1#1 :=
  IntOp.andi_eq_one

end Idealize.ShloMosaic.AllFinite

end
-- ==== Proof.Finite.lean ====
/-
  Finiteness from the precondition. The precondition says, of each of the three float arrays, that the conjunction
  over all its entries of |entry| < +∞ holds, and joins the three bits by `and`. The joined bit being 1 splits into
  the three bits being 1, and each says that every entry of its array is a real number.
-/
import proofs.«106654_j85418309583434_2_alg».proof.Pre_finite_inputs
import proofs.«106654_j85418309583434_2_alg».proof.Proof.Gen.Pre_finite_inputs
import proofs.«106654_j85418309583434_2_alg».proof.Proof.LibAllFinite
import proofs.«106654_j85418309583434_2_alg».proof.Proof.Spec

noncomputable section

open Idealize.ShloMosaic

namespace Cert.GatFinite

/-- Under the precondition every entry of the anchors, the neighbours and the weight is a real number. -/
theorem real_of_pre [Cert.Pre_finite_inputs.Facts] (a0 a1 : Cert.GatSpec.SMD.Idx → EReal)
    (a2 : Cert.GatSpec.SMN.Idx → BitVec 32) (a3 : Cert.GatSpec.SDD.Idx → EReal)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a3 i = (r : EReal)) := by
  have h0 := congrFun h ValueIdx.ix0
  dsimp only [Cert.Pre_finite_inputs.fn] at h0
  rw [AllFinite.andi_apply_eq_one, AllFinite.andi_apply_eq_one] at h0
  obtain ⟨⟨e0, e1⟩, e3⟩ := h0
  exact ⟨AllFinite.real_of_all a0 _ _ _ _ e0, AllFinite.real_of_all a1 _ _ _ _ e1,
    AllFinite.real_of_all a3 _ _ _ _ e3⟩

end Cert.GatFinite

end
-- ==== Proof.lean ====
/-
  A graph attention layer: for anchors xx [12288, 128], neighbours inp [12288, 128], an integer adjacency adj [12288, 12288]
  and a weight W [128, 128], row R of the result is the softmax-weighted mean of the neighbours' rows with scores
  (xx · W · inpᵀ) (R, n) over the temperature where adj (R, n) > 0 and the padding score −2³² over the temperature elsewhere.

  The kernel walks a 6 × 12 grid of (anchor tile, key tile) and keeps, per anchor row, a running maximum m, a normaliser l and
  weighted sums a, rescaled by exp (m − m') whenever the maximum moves (in two halves of 512 keys per grid point); the
  reference computes the whole softmax row at once. On the extended reals, with real inputs, both are the quotient
      (∑ₙ exp (z R n) · inp n d) / (∑ₙ exp (z R n)),
  because a common shift of the exponents cancels in the quotient (Proof/LibOnlineSoftmax.lean); Proof/Spec.lean states it.
  The kernel multiplies the projected anchors by the reciprocal of the temperature and fills masked scores with the padding
  score over the temperature; both constants are named at their exact rational values, the reciprocal 2²⁷ / 9395241 of the
  temperature's single-precision value and −2⁵⁹ / 9395241, so that the two programs use the same numbers (the three named
  sites are the conjuncts of the idealization claim). Finiteness of the float inputs is what lets the products distribute
  over the sums.
  Kernel side: Proof/Pieces.lean (what a grid point leaves, as compositions of the body's arithmetic), Proof/Rows.lean (that
  arithmetic row by row), Proof/Point.lean and Proof/Cases.lean (a row through one grid point), Proof/Blocks.lean (where the
  blocks sit), Proof/Invariant.lean (induction along the grid and the array after the run). Reference side:
  Proof/RefLit.lean, Proof/RefScore.lean, Proof/RefValue.lean. Proof/Finite.lean reads the precondition.
-/
import proofs.«106654_j85418309583434_2_alg».proof.Defs
import proofs.«106654_j85418309583434_2_alg».proof.Proof.Gen.Kernel
import proofs.«106654_j85418309583434_2_alg».proof.Proof.Gen.Kernel.Skeleton
import proofs.«106654_j85418309583434_2_alg».proof.Proof.Gen.Kernel.Launch
import proofs.«106654_j85418309583434_2_alg».proof.Proof.Gen.Kernel.Points
import proofs.«106654_j85418309583434_2_alg».proof.Proof.Gen.Kernel.Frame
import proofs.«106654_j85418309583434_2_alg».proof.Proof.Gen.KernelIdeal
import proofs.«106654_j85418309583434_2_alg».proof.Proof.Gen.KernelIdeal.Skeleton
import proofs.«106654_j85418309583434_2_alg».proof.Proof.Gen.KernelIdeal.Launch
import proofs.«106654_j85418309583434_2_alg».proof.Proof.Gen.KernelIdeal.Points
import proofs.«106654_j85418309583434_2_alg».proof.Proof.Gen.KernelIdeal.Frame
import proofs.«106654_j85418309583434_2_alg».proof.Proof.Gen.ReferenceIdeal
import proofs.«106654_j85418309583434_2_alg».proof.Proof.Gen.KernelIdeal.Value
import proofs.«106654_j85418309583434_2_alg».proof.Proof.Gen.ReferenceIdeal.Run
import proofs.«106654_j85418309583434_2_alg».proof.Proof.Gen.ReferenceIdeal.Read
import proofs.«106654_j85418309583434_2_alg».proof.Proof.Gen.Pre_finite_inputs
import proofs.«106654_j85418309583434_2_alg».proof.Proof.Invariant
import proofs.«106654_j85418309583434_2_alg».proof.Proof.RefValue
import proofs.«106654_j85418309583434_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The three named sites: the reciprocal of the temperature once, the padding score over the temperature twice. -/
theorem preserves : Cert.preserves_Kernel_KernelIdeal :=
  ⟨IdealRules.named_const.statement Cert.KernelIdeal.κ "inv_temp" .f32 0x41649249#32 ((134217728 / 9395241 : ℝ) : EReal) rfl,
    IdealRules.named_const.statement Cert.KernelIdeal.κ "neg_scaled" .f32 0xD1649249#32
      ((-576460752303423488 / 9395241 : ℝ) : EReal) rfl,
    IdealRules.named_const.statement Cert.KernelIdeal.κ "neg_scaled" .f32 0xD1649249#32
      ((-576460752303423488 / 9395241 : ℝ) : EReal) rfl⟩

/-- Both programs end at the specification of the argument arrays, which agree. -/
theorem algebraic : Cert.algebraic_KernelIdeal_ReferenceIdeal := by
  intro m ρ m' ρ' hpre hagree
  have hfin := fun c : Dev Cert.KernelIdeal.nD =>
    Cert.GatFinite.real_of_pre (Cert.GatInv.aXX m c) (Cert.GatInv.aINP m c) (Cert.GatInv.aADJ m c) (Cert.GatInv.aWW m c) (hpre c)
  refine ⟨fun c => Cert.GatSpec.G (Cert.GatInv.aXX m c) (Cert.GatInv.aINP m c) (Cert.GatInv.aADJ m c) (Cert.GatInv.aWW m c), ?_, ?_⟩
  · exact (θ_run Cert.KernelIdeal.defs _ _).mono
      (fun r h c => ⟨(h c).1.trans (Cert.GatInv.final m c (hfin c).1 (hfin c).2.1 (hfin c).2.2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v18_eq (F := Ideal) _ _ _ _).trans
      (Cert.GatRef.ref_eq (Cert.GatInv.aXX m c) (Cert.GatInv.aINP m c) (Cert.GatInv.aADJ m c) (Cert.GatInv.aWW m c)
        (hfin c).1 (hfin c).2.1 (hfin c).2.2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
